-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x512 : Shape := ⟨4, ![4, 256, 128, 512]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S4x256x128x512 : S_.BroadcastsInDim S4x256x128x512 (![] : Fin 0 → Fin S4x256x128x512.rank)
  reducesTo_S4x256x128x512_S_d0_1_2_3 : S4x256x128x512.ReducesTo [0, 1, 2, 3] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x256x128x512 .f32) (main_arg1 : FVec F S1536x512 .f32) (main_arg2 : FVec F S512x512 .f32) (main_arg3 : FVec F S512 .f32) : IVec S_ 1 :=
  let main_v0 : FVec F S4x256x128x512 .f32 := Host.absf main_arg0
  let main_cst : FVec F S_ .f32 := constant S_ .f32 0x7F800000#32
  let main_v1 : FVec F S4x256x128x512 .f32 := broadcastInDim S4x256x128x512 ![] bcast_S_S4x256x128x512 main_cst
  let main_v2 : IVec S4x256x128x512 1 := cmpf .olt main_v0 main_v1
  let main_c : IVec S_ 1 := constantI S_ 1 1#1
  let main_v3 : IVec S_ 1 := (fun x v => Host.reduce IntOp.andi x v reducesTo_S4x256x128x512_S_d0_1_2_3 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x256x128x512 : Shape := ⟨4, ![4, 256, 128, 512]⟩
abbrev S1536x512 : Shape := ⟨2, ![1536, 512]⟩
abbrev S512x512 : Shape := ⟨2, ![512, 512]⟩
abbrev S512 : Shape := ⟨1, ![512]⟩
abbrev S4x64x4x32x4x512 : Shape := ⟨6, ![4, 64, 4, 32, 4, 512]⟩
abbrev S4x64x32x4x4x512 : Shape := ⟨6, ![4, 64, 32, 4, 4, 512]⟩
abbrev S8192x16x512 : Shape := ⟨3, ![8192, 16, 512]⟩
abbrev S1x512 : Shape := ⟨2, ![1, 512]⟩
abbrev S128x16x512 : Shape := ⟨3, ![128, 16, 512]⟩
abbrev S2048x512 : Shape := ⟨2, ![2048, 512]⟩
abbrev S64x512 : Shape := ⟨2, ![64, 512]⟩
abbrev S2048x64 : Shape := ⟨2, ![2048, 64]⟩
abbrev S128x16x64 : Shape := ⟨3, ![128, 16, 64]⟩
abbrev S128x16x16 : Shape := ⟨3, ![128, 16, 16]⟩
abbrev S128x16 : Shape := ⟨2, ![128, 16]⟩
abbrev S128x16x1 : Shape := ⟨3, ![128, 16, 1]⟩

abbrev nBuf : Space → Nat
  | .hbm => 20
  | .vmem => 9
  | .smem => 0
  | _ => 0

abbrev bufTy : (tb : Table) → Fin (tcTables nBuf tb) → BufTy
  | .hbm, ⟨0, _⟩ => ⟨S4x256x128x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S4x256x128x512, .bf16⟩
  | .hbm, ⟨5, _⟩ => ⟨S4x64x4x32x4x512, .bf16⟩
  | .hbm, ⟨6, _⟩ => ⟨S4x64x32x4x4x512, .bf16⟩
  | .hbm, ⟨7, _⟩ => ⟨S8192x16x512, .bf16⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .bf16⟩
  | .hbm, ⟨14, _⟩ => ⟨S512x512, .bf16⟩
  | .hbm, ⟨15, _⟩ => ⟨S1x512, .f32⟩
  | .hbm, ⟨16, _⟩ => ⟨S8192x16x512, .f32⟩
  | .hbm, ⟨17, _⟩ => ⟨S4x64x32x4x4x512, .f32⟩
  | .hbm, ⟨18, _⟩ => ⟨S4x64x4x32x4x512, .f32⟩
  | .hbm, ⟨19, _⟩ => ⟨S4x256x128x512, .f32⟩
  | .local _ .vmem, ⟨0, _⟩ => ⟨S128x16x512, .bf16⟩
  | .local _ .vmem, ⟨1, _⟩ => ⟨S128x16x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S128x16x512, .f32⟩
  | .local _ .vmem, ⟨8, _⟩ => ⟨S128x16x512, .f32⟩
  | _, _ => ⟨S4x256x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S4x256x128x512_S4x64x4x32x4x512 : S4x256x128x512.ShapeCasts S4x64x4x32x4x512
  transposes_S4x64x4x32x4x512_S4x64x32x4x4x512_0_1_3_2_4_5 : S4x64x4x32x4x512.Transposes [0, 1, 3, 2, 4, 5] S4x64x32x4x4x512
  shapeCasts_S4x64x32x4x4x512_S8192x16x512 : S4x64x32x4x4x512.ShapeCasts S8192x16x512
  slices_S1536x512_S512x512_0_0 : S1536x512.Slices ![0, 0] S512x512
  slices_S1536x512_S512x512_512_0 : S1536x512.Slices ![512, 0] S512x512
  slices_S1536x512_S512x512_1024_0 : S1536x512.Slices ![1024, 0] S512x512
  shapeCasts_S512_S1x512 : S512.ShapeCasts S1x512
  inb_S128x16x512_S128x16x512_0_0_0 : ∀ a, (![0, 0, 0] : Fin 3 → Nat) a + S128x16x512.size a ≤ S128x16x512.size a
  h_S128x16x512 : 0 < S128x16x512.numel
  shapeCasts_S128x16x512_S128x16x512 : S128x16x512.ShapeCasts S128x16x512
  shapeCasts_S128x16x512_S2048x512 : S128x16x512.ShapeCasts S2048x512
  inb_S512x512_S64x512_0_0 : ∀ a, (![0, 0] : Fin 2 → Nat) a + S64x512.size a ≤ S512x512.size a
  h_S64x512 : 0 < S64x512.numel
  shapeCasts_S64x512_S64x512 : S64x512.ShapeCasts S64x512
  shapeCasts_S2048x64_S128x16x64 : S2048x64.ShapeCasts S128x16x64
  reduces_S128x16x16_S128x16 : S128x16x16.Reduces [2] S128x16
  shapeCasts_S128x16_S128x16x1 : S128x16.ShapeCasts S128x16x1
  broadcasts_S128x16x1_S128x16x16 : S128x16x1.Broadcasts S128x16x16
  shapeCasts_S128x16x64_S2048x64 : S128x16x64.ShapeCasts S2048x64
  inb_S512x512_S64x512_64_0 : ∀ a, (![64, 0] : Fin 2 → Nat) a + S64x512.size a ≤ S512x512.size a
  inb_S512x512_S64x512_128_0 : ∀ a, (![128, 0] : Fin 2 → Nat) a + S64x512.size a ≤ S512x512.size a
  inb_S512x512_S64x512_192_0 : ∀ a, (![192, 0] : Fin 2 → Nat) a + S64x512.size a ≤ S512x512.size a
  inb_S512x512_S64x512_256_0 : ∀ a, (![256, 0] : Fin 2 → Nat) a + S64x512.size a ≤ S512x512.size a
  inb_S512x512_S64x512_320_0 : ∀ a, (![320, 0] : Fin 2 → Nat) a + S64x512.size a ≤ S512x512.size a
  inb_S512x512_S64x512_384_0 : ∀ a, (![384, 0] : Fin 2 → Nat) a + S64x512.size a ≤ S512x512.size a
  inb_S512x512_S64x512_448_0 : ∀ a, (![448, 0] : Fin 2 → Nat) a + S64x512.size a ≤ S512x512.size a
  concatenates_S2048x64_S2048x64_S2048x64_S2048x64_S2048x64_S2048x64_S2048x64_S2048x64_S2048x512_d1 : Shape.Concatenates [S2048x64, S2048x64, S2048x64, S2048x64, S2048x64, S2048x64, S2048x64, S2048x64] S2048x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x512_S128x16x512 : S2048x512.ShapeCasts S128x16x512
  shapeCasts_S8192x16x512_S4x64x32x4x4x512 : S8192x16x512.ShapeCasts S4x64x32x4x4x512
  transposes_S4x64x32x4x4x512_S4x64x4x32x4x512_0_1_3_2_4_5 : S4x64x32x4x4x512.Transposes [0, 1, 3, 2, 4, 5] S4x64x4x32x4x512
  shapeCasts_S4x64x4x32x4x512_S4x256x128x512 : S4x64x4x32x4x512.ShapeCasts S4x256x128x512
  dot_S2048x512_S64x512_S2048x64_1_1_0_0_n_n_wf : DotDims.WF S2048x512 S64x512 S2048x64 [1] [1] [0] [0] [] []
  dot_S128x16x64_S128x16x64_S128x16x16_2_2_1_1_0_0_wf : DotDims.WF S128x16x64 S128x16x64 S128x16x16 [2] [2] [1] [1] [0] [0]
  dot_S128x16x16_S128x16x64_S128x16x64_2_1_1_2_0_0_wf : DotDims.WF S128x16x16 S128x16x64 S128x16x64 [2] [1] [1] [2] [0] [0]
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x512.size a ≤ S8192x16x512.size a
  hwx0_0 : ∀ i : grid0.Coords, EltTy.bits .bf16 = 32 ∨ (Rect.block (s := S8192x16x512) S128x16x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x16x512.size a ≤ S8192x16x512.size a
  hwx0_6 : ∀ i : grid0.Coords, EltTy.bits .f32 = 32 ∨ (Rect.block (s := S8192x16x512) S128x16x512.size (cc0_transform_6 i) (hinb0_6 i)).WholeWords (EltTy.packing .f32)

variable [Facts₀]

def dot_S2048x512_S64x512_S2048x64_1_1_0_0_n_n : DotDims S2048x512 S64x512 S2048x64 where
  lhsContracting := [1]
  rhsContracting := [1]
  lhsNonContracting := [0]
  rhsNonContracting := [0]
  lhsBatch := []
  rhsBatch := []
  wf := dot_S2048x512_S64x512_S2048x64_1_1_0_0_n_n_wf
def dot_S128x16x64_S128x16x64_S128x16x16_2_2_1_1_0_0 : DotDims S128x16x64 S128x16x64 S128x16x16 where
  lhsContracting := [2]
  rhsContracting := [2]
  lhsNonContracting := [1]
  rhsNonContracting := [1]
  lhsBatch := [0]
  rhsBatch := [0]
  wf := dot_S128x16x64_S128x16x64_S128x16x16_2_2_1_1_0_0_wf
def dot_S128x16x16_S128x16x64_S128x16x64_2_1_1_2_0_0 : DotDims S128x16x16 S128x16x64 S128x16x64 where
  lhsContracting := [2]
  rhsContracting := [1]
  lhsNonContracting := [1]
  rhsNonContracting := [2]
  lhsBatch := [0]
  rhsBatch := [0]
  wf := dot_S128x16x16_S128x16x64_S128x16x64_2_1_1_2_0_0_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v3) S128x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S128x16x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x256x128x512 : Shape := ⟨4, ![4, 256, 128, 512]⟩
abbrev S1536x512 : Shape := ⟨2, ![1536, 512]⟩
abbrev S512x512 : Shape := ⟨2, ![512, 512]⟩
abbrev S512 : Shape := ⟨1, ![512]⟩
abbrev S4x64x4x32x4x512 : Shape := ⟨6, ![4, 64, 4, 32, 4, 512]⟩
abbrev S4x64x32x4x4x512 : Shape := ⟨6, ![4, 64, 32, 4, 4, 512]⟩
abbrev S8192x16x512 : Shape := ⟨3, ![8192, 16, 512]⟩
abbrev S8192x16x1536 : Shape := ⟨3, ![8192, 16, 1536]⟩
abbrev S8192x16x8x64 : Shape := ⟨4, ![8192, 16, 8, 64]⟩
abbrev S8192x8x16x64 : Shape := ⟨4, ![8192, 8, 16, 64]⟩
abbrev S8192x8x16x16 : Shape := ⟨4, ![8192, 8, 16, 16]⟩
abbrev S_ : Shape := ⟨0, ![]⟩
abbrev S8192x8x16 : Shape := ⟨3, ![8192, 8, 16]⟩
abbrev S8192x8x16x1 : Shape := ⟨4, ![8192, 8, 16, 1]⟩
abbrev S1x1x512 : Shape := ⟨3, ![1, 1, 512]⟩

abbrev nBuf : Space → Nat
  | .hbm => 45
  | .vmem => 0
  | .smem => 0
  | _ => 0

abbrev bufTy : (tb : Table) → Fin (tcTables nBuf tb) → BufTy
  | .hbm, ⟨0, _⟩ => ⟨S4x256x128x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S4x64x4x32x4x512, .f32⟩
  | .hbm, ⟨5, _⟩ => ⟨S4x64x32x4x4x512, .f32⟩
  | .hbm, ⟨6, _⟩ => ⟨S8192x16x512, .f32⟩
  | .hbm, ⟨7, _⟩ => ⟨S8192x16x1536, .f32⟩
  | .hbm, ⟨8, _⟩ => ⟨S8192x16x512, .f32⟩
  | .hbm, ⟨9, _⟩ => ⟨S8192x16x512, .f32⟩
  | .hbm, ⟨10, _⟩ => ⟨S8192x16x512, .f32⟩
  | .hbm, ⟨11, _⟩ => ⟨S8192x16x8x64, .f32⟩
  | .hbm, ⟨12, _⟩ => ⟨S8192x8x16x64, .f32⟩
  | .hbm, ⟨13, _⟩ => ⟨S8192x16x8x64, .f32⟩
  | .hbm, ⟨14, _⟩ => ⟨S8192x8x16x64, .f32⟩
  | .hbm, ⟨15, _⟩ => ⟨S8192x16x8x64, .f32⟩
  | .hbm, ⟨16, _⟩ => ⟨S8192x8x16x64, .f32⟩
  | .hbm, ⟨17, _⟩ => ⟨S8192x8x16x16, .f32⟩
  | .hbm, ⟨18, _⟩ => ⟨S_, .f32⟩
  | .hbm, ⟨19, _⟩ => ⟨S8192x8x16x16, .f32⟩
  | .hbm, ⟨20, _⟩ => ⟨S8192x8x16x16, .f32⟩
  | .hbm, ⟨21, _⟩ => ⟨S_, .f32⟩
  | .hbm, ⟨22, _⟩ => ⟨S8192x8x16, .f32⟩
  | .hbm, ⟨23, _⟩ => ⟨S_, .f32⟩
  | .hbm, ⟨24, _⟩ => ⟨S8192x8x16, .f32⟩
  | .hbm, ⟨25, _⟩ => ⟨S8192x8x16, .f32⟩
  | .hbm, ⟨26, _⟩ => ⟨S8192x8x16x1, .f32⟩
  | .hbm, ⟨27, _⟩ => ⟨S8192x8x16x16, .f32⟩
  | .hbm, ⟨28, _⟩ => ⟨S8192x8x16x16, .f32⟩
  | .hbm, ⟨29, _⟩ => ⟨S8192x8x16x16, .f32⟩
  | .hbm, ⟨30, _⟩ => ⟨S_, .f32⟩
  | .hbm, ⟨31, _⟩ => ⟨S8192x8x16, .f32⟩
  | .hbm, ⟨32, _⟩ => ⟨S8192x8x16x1, .f32⟩
  | .hbm, ⟨33, _⟩ => ⟨S8192x8x16x16, .f32⟩
  | .hbm, ⟨34, _⟩ => ⟨S8192x8x16x16, .f32⟩
  | .hbm, ⟨35, _⟩ => ⟨S8192x8x16x64, .f32⟩
  | .hbm, ⟨36, _⟩ => ⟨S8192x16x8x64, .f32⟩
  | .hbm, ⟨37, _⟩ => ⟨S8192x16x512, .f32⟩
  | .hbm, ⟨38, _⟩ => ⟨S8192x16x512, .f32⟩
  | .hbm, ⟨39, _⟩ => ⟨S1x1x512, .f32⟩
  | .hbm, ⟨40, _⟩ => ⟨S8192x16x512, .f32⟩
  | .hbm, ⟨41, _⟩ => ⟨S8192x16x512, .f32⟩
  | .hbm, ⟨42, _⟩ => ⟨S4x64x32x4x4x512, .f32⟩
  | .hbm, ⟨43, _⟩ => ⟨S4x64x4x32x4x512, .f32⟩
  | .hbm, ⟨44, _⟩ => ⟨S4x256x128x512, .f32⟩
  | _, _ => ⟨S4x256x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]

class Facts₀ : Prop where
  shapeCasts_S4x256x128x512_S4x64x4x32x4x512 : S4x256x128x512.ShapeCasts S4x64x4x32x4x512
  transposes_S4x64x4x32x4x512_S4x64x32x4x4x512_0_1_3_2_4_5 : S4x64x4x32x4x512.Transposes [0, 1, 3, 2, 4, 5] S4x64x32x4x4x512
  shapeCasts_S4x64x32x4x4x512_S8192x16x512 : S4x64x32x4x4x512.ShapeCasts S8192x16x512
  slices_S8192x16x1536_S8192x16x512_0_0_0 : S8192x16x1536.Slices ![0, 0, 0] S8192x16x512
  slices_S8192x16x1536_S8192x16x512_0_0_512 : S8192x16x1536.Slices ![0, 0, 512] S8192x16x512
  slices_S8192x16x1536_S8192x16x512_0_0_1024 : S8192x16x1536.Slices ![0, 0, 1024] S8192x16x512
  shapeCasts_S8192x16x512_S8192x16x8x64 : S8192x16x512.ShapeCasts S8192x16x8x64
  transposes_S8192x16x8x64_S8192x8x16x64_0_2_1_3 : S8192x16x8x64.Transposes [0, 2, 1, 3] S8192x8x16x64
  bcast_S_S8192x8x16x16 : S_.BroadcastsInDim S8192x8x16x16 (![] : Fin 0 → Fin S8192x8x16x16.rank)
  reducesTo_S8192x8x16x16_S8192x8x16_d3 : S8192x8x16x16.ReducesTo [3] S8192x8x16
  h_S_ : 0 < S_.numel
  bcast_S_S8192x8x16 : S_.BroadcastsInDim S8192x8x16 (![] : Fin 0 → Fin S8192x8x16.rank)
  bcast_S8192x8x16_S8192x8x16x1_0_1_2 : S8192x8x16.BroadcastsInDim S8192x8x16x1 (![0, 1, 2] : Fin 3 → Fin S8192x8x16x1.rank)
  bcast_S8192x8x16x1_S8192x8x16x16_0_1_2_3 : S8192x8x16x1.BroadcastsInDim S8192x8x16x16 (![0, 1, 2, 3] : Fin 4 → Fin S8192x8x16x16.rank)
  transposes_S8192x8x16x64_S8192x16x8x64_0_2_1_3 : S8192x8x16x64.Transposes [0, 2, 1, 3] S8192x16x8x64
  shapeCasts_S8192x16x8x64_S8192x16x512 : S8192x16x8x64.ShapeCasts S8192x16x512
  bcast_S512_S1x1x512_2 : S512.BroadcastsInDim S1x1x512 (![2] : Fin 1 → Fin S1x1x512.rank)
  bcast_S1x1x512_S8192x16x512_0_1_2 : S1x1x512.BroadcastsInDim S8192x16x512 (![0, 1, 2] : Fin 3 → Fin S8192x16x512.rank)
  shapeCasts_S8192x16x512_S4x64x32x4x4x512 : S8192x16x512.ShapeCasts S4x64x32x4x4x512
  transposes_S4x64x32x4x4x512_S4x64x4x32x4x512_0_1_3_2_4_5 : S4x64x32x4x4x512.Transposes [0, 1, 3, 2, 4, 5] S4x64x4x32x4x512
  shapeCasts_S4x64x4x32x4x512_S4x256x128x512 : S4x64x4x32x4x512.ShapeCasts S4x256x128x512
  dot_S8192x16x512_S1536x512_S8192x16x1536_2_1_01_0_n_n_wf : DotDims.WF S8192x16x512 S1536x512 S8192x16x1536 [2] [1] [0, 1] [0] [] []
  dot_S8192x8x16x64_S8192x8x16x64_S8192x8x16x16_3_3_2_2_01_01_wf : DotDims.WF S8192x8x16x64 S8192x8x16x64 S8192x8x16x16 [3] [3] [2] [2] [0, 1] [0, 1]
  dot_S8192x8x16x16_S8192x8x16x64_S8192x8x16x64_3_2_2_3_01_01_wf : DotDims.WF S8192x8x16x16 S8192x8x16x64 S8192x8x16x64 [3] [2] [2] [3] [0, 1] [0, 1]
  dot_S8192x16x512_S512x512_S8192x16x512_2_1_01_0_n_n_wf : DotDims.WF S8192x16x512 S512x512 S8192x16x512 [2] [1] [0, 1] [0] [] []

variable [Facts₀]

def dot_S8192x16x512_S1536x512_S8192x16x1536_2_1_01_0_n_n : DotDims S8192x16x512 S1536x512 S8192x16x1536 where
  lhsContracting := [2]
  rhsContracting := [1]
  lhsNonContracting := [0, 1]
  rhsNonContracting := [0]
  lhsBatch := []
  rhsBatch := []
  wf := dot_S8192x16x512_S1536x512_S8192x16x1536_2_1_01_0_n_n_wf
def dot_S8192x8x16x64_S8192x8x16x64_S8192x8x16x16_3_3_2_2_01_01 : DotDims S8192x8x16x64 S8192x8x16x64 S8192x8x16x16 where
  lhsContracting := [3]
  rhsContracting := [3]
  lhsNonContracting := [2]
  rhsNonContracting := [2]
  lhsBatch := [0, 1]
  rhsBatch := [0, 1]
  wf := dot_S8192x8x16x64_S8192x8x16x64_S8192x8x16x16_3_3_2_2_01_01_wf
def dot_S8192x8x16x16_S8192x8x16x64_S8192x8x16x64_3_2_2_3_01_01 : DotDims S8192x8x16x16 S8192x8x16x64 S8192x8x16x64 where
  lhsContracting := [3]
  rhsContracting := [2]
  lhsNonContracting := [2]
  rhsNonContracting := [3]
  lhsBatch := [0, 1]
  rhsBatch := [0, 1]
  wf := dot_S8192x8x16x16_S8192x8x16x64_S8192x8x16x64_3_2_2_3_01_01_wf
def dot_S8192x16x512_S512x512_S8192x16x512_2_1_01_0_n_n : DotDims S8192x16x512 S512x512 S8192x16x512 where
  lhsContracting := [2]
  rhsContracting := [1]
  lhsNonContracting := [0, 1]
  rhsNonContracting := [0]
  lhsBatch := []
  rhsBatch := []
  wf := dot_S8192x16x512_S512x512_S8192x16x512_2_1_01_0_n_n_wf

class Facts : Prop extends Facts₀ where

variable [Facts]
-- ==== Proof.KernelStages.lean ====
/-
  The kernel body's arithmetic, regrouped by what it computes.

  The body handles a block of 128 windows at once, as a 2048 × 512 array of token rows (row
  `w·16 + n` is token `n` of window `w`).  For each of the eight heads it projects the rows onto the
  head's 64 query, key and value features, forms the 16 × 16 scores inside each window, applies the
  softmax along the key axis, and mixes the value rows; the eight results are laid side by side and
  pushed through the output weights, with the bias added.

  The generated payloads cut this text at fixed positions, so some heads are whole payloads and
  others are spread over three or four.  Here every head is written as ONE function `head` of the
  block and the head's three weight slices, built from named stages, and each payload combination is
  shown to be that function — by unfolding only.
-/
import proofs.«162531_j38431367365166_1_alg».proof.Proof.Gen.KernelIdeal.Skeleton

noncomputable section

namespace Cert.KernelIdeal.Stages

open Idealize.ShloMosaic Idealize.SL.Sem Cert.KernelIdeal Cert.KernelIdeal.Gen

variable {F : FTy → Type} [FloatOps F]

/-- The rows' projection onto 64 features, viewed window by window. -/
def projW (X : FVec F S2048x512 .bf16) (w : FVec F S64x512 .bf16) : FVec F S128x16x64 .bf16 :=
  shapeCast S128x16x64
    (truncf .bf16 (matmul dot_S2048x512_S64x512_S2048x64_1_1_0_0_n_n none X w (constant S2048x64 .f32 0x00000000#32)) bitsLt_bf16_f32)
    shapeCasts_S2048x64_S128x16x64

/-- The scaled scores inside each window. -/
def scores (q k : FVec F S128x16x64 .bf16) : FVec F S128x16x16 .f32 :=
  mulf (matmul dot_S128x16x64_S128x16x64_S128x16x16_2_2_1_1_0_0 none q k (constant S128x16x16 .f32 0x00000000#32))
    (broadcast S128x16x16 (Scalar.ofBits .f32 0x3E000000#32))

/-- The row maxima, repeated along the key axis. -/
def rowMaxB (s : FVec F S128x16x16 .f32) : FVec F S128x16x16 .f32 :=
  broadcastTo S128x16x16
    (shapeCast S128x16x1
      (maximumf (broadcast S128x16 (Scalar.ofBits .f32 0xFF800000#32))
        (multiReduction .maximumf [2] S128x16 s 0xFF800000#32 reduces_S128x16x16_S128x16 (.inl rfl) rfl))
      shapeCasts_S128x16_S128x16x1)
    broadcasts_S128x16x1_S128x16x16

/-- The shifted exponentials. -/
def expos (s : FVec F S128x16x16 .f32) : FVec F S128x16x16 .f32 := exp (subf s (rowMaxB s))

/-- The row sums, kept as a column. -/
def rowSumC (e : FVec F S128x16x16 .f32) : FVec F S128x16x1 .f32 :=
  shapeCast S128x16x1 (multiReduction .add [2] S128x16 e 0x00000000#32 reduces_S128x16x16_S128x16 (.inl rfl) rfl)
    shapeCasts_S128x16_S128x16x1

/-- The softmax weights from the exponentials and their row sums. -/
def weights (e : FVec F S128x16x16 .f32) (z : FVec F S128x16x1 .f32) : FVec F S128x16x16 .bf16 :=
  truncf .bf16 (divf e (broadcastTo S128x16x16 z broadcasts_S128x16x1_S128x16x16)) bitsLt_bf16_f32

/-- The weighted mix of the value rows, back as 2048 rows. -/
def mix (p : FVec F S128x16x16 .bf16) (v : FVec F S128x16x64 .bf16) : FVec F S2048x64 .bf16 :=
  shapeCast S2048x64
    (truncf .bf16 (matmul dot_S128x16x16_S128x16x64_S128x16x64_2_1_1_2_0_0 none p v (constant S128x16x64 .f32 0x00000000#32)) bitsLt_bf16_f32)
    shapeCasts_S128x16x64_S2048x64

/-- One head: block rows and the head's query, key and value weight slices to the head's output rows. -/
def head (X : FVec F S2048x512 .bf16) (wq wk wv : FVec F S64x512 .bf16) : FVec F S2048x64 .bf16 :=
  mix (weights (expos (scores (projW X wq) (projW X wk))) (rowSumC (expos (scores (projW X wq) (projW X wk))))) (projW X wv)

/-- The heads side by side, the output projection and the bias, back as windows. -/
def finish (o0 o1 o2 o3 o4 o5 o6 o7 : FVec F S2048x64 .bf16) (wp : FVec F S512x512 .bf16) (b : FVec F S1x512 .f32) :
    FVec F S128x16x512 .f32 :=
  shapeCast S128x16x512
    (addf
      (matmul dot_S2048x512_S512x512_S2048x512_1_1_0_0_n_n none
        (concatenate S2048x512 1 [⟨S2048x64, o0⟩, ⟨S2048x64, o1⟩, ⟨S2048x64, o2⟩, ⟨S2048x64, o3⟩, ⟨S2048x64, o4⟩, ⟨S2048x64, o5⟩, ⟨S2048x64, o6⟩, ⟨S2048x64, o7⟩]
          concatenates_S2048x64_S2048x64_S2048x64_S2048x64_S2048x64_S2048x64_S2048x64_S2048x64_S2048x512_d1)
        wp (constant S2048x512 .f32 0x00000000#32))
      (broadcastTo S2048x512 b broadcasts_S1x512_S2048x512))
    shapeCasts_S2048x512_S128x16x512

/-- A weight slice as loaded, through the shape cast to its own shape the body applies. -/
abbrev sl (v : Vec F S64x512 .bf16) : FVec F S64x512 .bf16 := shapeCast S64x512 v shapeCasts_S64x512_S64x512

/-! ## The payloads are these functions -/

theorem head0_eq (v0 : Vec F S128x16x512 .bf16) (a b c : Vec F S64x512 .bf16) :
    k0_pay3 v0 a b c = head (k0_pay2 v0) (sl a) (sl b) (sl c) := rfl

theorem head1_eq (X : FVec F S2048x512 .bf16) (a b c : Vec F S64x512 .bf16) :
    k0_pay5 X (k0_pay4 a) b c = head X (sl a) (sl b) (sl c) := rfl

theorem head2_eq (X : FVec F S2048x512 .bf16) (a b c : Vec F S64x512 .bf16) :
    k0_pay9 X (k0_pay6 c) (k0_pay7 X a) (k0_pay8 X b) = head X (sl a) (sl b) (sl c) := rfl

theorem head3_eq (X : FVec F S2048x512 .bf16) (a b c : Vec F S64x512 .bf16) :
    k0_pay12 (k0_pay10 X c) (k0_pay11 X a b) = head X (sl a) (sl b) (sl c) := rfl

theorem head4_eq (X : FVec F S2048x512 .bf16) (a b c : Vec F S64x512 .bf16) :
    k0_pay16 (k0_pay13 X c) (k0_pay14 X a b) (k0_pay15 X a b) = head X (sl a) (sl b) (sl c) := rfl

theorem head5_eq (X : FVec F S2048x512 .bf16) (a b c : Vec F S64x512 .bf16) :
    k0_pay17 X a b c = head X (sl a) (sl b) (sl c) := rfl

theorem head6_eq (X : FVec F S2048x512 .bf16) (a b c : Vec F S64x512 .bf16) :
    k0_pay19 X (k0_pay18 a) b c = head X (sl a) (sl b) (sl c) := rfl

theorem last_eq (X : FVec F S2048x512 .bf16) (o0 o1 o2 o3 o4 o5 o6 : FVec F S2048x64 .bf16) (a b c : Vec F S64x512 .bf16)
    (wp : Vec F S512x512 .bf16) (bp : Vec F S1x512 .f32) :
    k0_pay1 X o0 o1 o2 o3 o4 o5 o6 (k0_pay20 c) (k0_pay21 X a) (k0_pay22 X b) wp bp
      = finish o0 o1 o2 o3 o4 o5 o6 (head X (sl a) (sl b) (sl c)) (shapeCast S512x512 wp shapeCasts_S512x512_S512x512)
          (shapeCast S1x512 bp shapeCasts_S1x512_S1x512) := rfl

end Cert.KernelIdeal.Stages

end
-- ==== Proof.KernelDots.lean ====
/-
  The body's four matrix products, read at an index over the extended reals.

  Each is a plain sum of products over the one contracted axis:
  rows × weight-slice rows (the projections), query rows × key rows inside a window (the scores),
  softmax weights × value rows inside a window (the mix), and combined rows × output-weight rows.
  Accumulating into the zero array adds nothing.
-/
import proofs.«162531_j38431367365166_1_alg».proof.Proof.Gen.KernelIdeal.Skeleton
import Idealize.ShloMosaic.Lib.ValueIdx
import Idealize.ShloMosaic.PureOps.Ideal.Laws

noncomputable section

namespace Cert.KernelIdeal.Stages

open Idealize.ShloMosaic Idealize.ShloMosaic.ValueIdx Idealize.SL.Sem Cert.KernelIdeal Cert.KernelIdeal.Gen

theorem dotP_lhs0 (i : S2048x64.Idx) (q : dot_S2048x512_S64x512_S2048x64_1_1_0_0_n_n.contr.Idx) :
    (dot_S2048x512_S64x512_S2048x64_1_1_0_0_n_n.lhsIdx i q 0).val = (i 0).val := by
  unfold DotDims.lhsIdx
  rw [dif_neg (show ¬(0 : Fin S2048x512.rank) ∈ dot_S2048x512_S64x512_S2048x64_1_1_0_0_n_n.lhsBatch by decide), dif_pos (show (0 : Fin S2048x512.rank) ∈ dot_S2048x512_S64x512_S2048x64_1_1_0_0_n_n.lhsNonContracting by decide)]
  rfl
theorem dotP_lhs1 (i : S2048x64.Idx) (q : dot_S2048x512_S64x512_S2048x64_1_1_0_0_n_n.contr.Idx) :
    (dot_S2048x512_S64x512_S2048x64_1_1_0_0_n_n.lhsIdx i q 1).val = (q ⟨0, by decide⟩).val :=
  dot_S2048x512_S64x512_S2048x64_1_1_0_0_n_n.lhsIdx_val_of_single rfl i q
theorem dotP_rhs0 (i : S2048x64.Idx) (q : dot_S2048x512_S64x512_S2048x64_1_1_0_0_n_n.contr.Idx) :
    (dot_S2048x512_S64x512_S2048x64_1_1_0_0_n_n.rhsIdx i q 0).val = (i 1).val := by
  unfold DotDims.rhsIdx
  rw [dif_neg (show ¬(0 : Fin S64x512.rank) ∈ dot_S2048x512_S64x512_S2048x64_1_1_0_0_n_n.rhsBatch by decide), dif_pos (show (0 : Fin S64x512.rank) ∈ dot_S2048x512_S64x512_S2048x64_1_1_0_0_n_n.rhsNonContracting by decide)]
  rfl
theorem dotP_rhs1 (i : S2048x64.Idx) (q : dot_S2048x512_S64x512_S2048x64_1_1_0_0_n_n.contr.Idx) :
    (dot_S2048x512_S64x512_S2048x64_1_1_0_0_n_n.rhsIdx i q 1).val = (q ⟨0, by decide⟩).val :=
  dot_S2048x512_S64x512_S2048x64_1_1_0_0_n_n.rhsIdx_val_of_single rfl i q
/-- A projection: row `m` against weight row `d`. -/
theorem dotP_apply (X : FVec Ideal S2048x512 .bf16) (w : FVec Ideal S64x512 .bf16) (m : Fin 2048) (d : Fin 64) :
    matmul dot_S2048x512_S64x512_S2048x64_1_1_0_0_n_n none X w (constant S2048x64 .f32 0x00000000#32) (ix2 m d)
      = ∑ k : Fin 512, X (ix2 m k) * w (ix2 d k) := by
  simp only [matmul]
  rw [Ideal.matmul_constant_zero_apply, ← Equiv.sum_comp (contrEquiv1 dot_S2048x512_S64x512_S2048x64_1_1_0_0_n_n 512 rfl rfl).symm]
  refine Finset.sum_congr rfl fun k _ => ?_
  have hk := contrEquiv1_symm_val dot_S2048x512_S64x512_S2048x64_1_1_0_0_n_n 512 rfl rfl k
  have el : dot_S2048x512_S64x512_S2048x64_1_1_0_0_n_n.lhsIdx (ix2 m d) ((contrEquiv1 dot_S2048x512_S64x512_S2048x64_1_1_0_0_n_n 512 rfl rfl).symm k) = ix2 m k := funext fun a => Fin.ext (by
    match a with
    | ⟨0, _⟩ => exact dotP_lhs0 _ _
    | ⟨1, _⟩ => exact (dotP_lhs1 _ _).trans hk)
  have er : dot_S2048x512_S64x512_S2048x64_1_1_0_0_n_n.rhsIdx (ix2 m d) ((contrEquiv1 dot_S2048x512_S64x512_S2048x64_1_1_0_0_n_n 512 rfl rfl).symm k) = ix2 d k := funext fun a => Fin.ext (by
    match a with
    | ⟨0, _⟩ => exact dotP_rhs0 _ _
    | ⟨1, _⟩ => exact (dotP_rhs1 _ _).trans hk)
  rw [el, er]

theorem dotS_lhs0 (i : S128x16x16.Idx) (q : dot_S128x16x64_S128x16x64_S128x16x16_2_2_1_1_0_0.contr.Idx) :
    (dot_S128x16x64_S128x16x64_S128x16x16_2_2_1_1_0_0.lhsIdx i q 0).val = (i 0).val := by
  unfold DotDims.lhsIdx
  rw [dif_pos (show (0 : Fin S128x16x64.rank) ∈ dot_S128x16x64_S128x16x64_S128x16x16_2_2_1_1_0_0.lhsBatch by decide)]
  rfl
theorem dotS_lhs1 (i : S128x16x16.Idx) (q : dot_S128x16x64_S128x16x64_S128x16x16_2_2_1_1_0_0.contr.Idx) :
    (dot_S128x16x64_S128x16x64_S128x16x16_2_2_1_1_0_0.lhsIdx i q 1).val = (i 1).val := by
  unfold DotDims.lhsIdx
  rw [dif_neg (show ¬(1 : Fin S128x16x64.rank) ∈ dot_S128x16x64_S128x16x64_S128x16x16_2_2_1_1_0_0.lhsBatch by decide), dif_pos (show (1 : Fin S128x16x64.rank) ∈ dot_S128x16x64_S128x16x64_S128x16x16_2_2_1_1_0_0.lhsNonContracting by decide)]
  rfl
theorem dotS_lhs2 (i : S128x16x16.Idx) (q : dot_S128x16x64_S128x16x64_S128x16x16_2_2_1_1_0_0.contr.Idx) :
    (dot_S128x16x64_S128x16x64_S128x16x16_2_2_1_1_0_0.lhsIdx i q 2).val = (q ⟨0, by decide⟩).val :=
  dot_S128x16x64_S128x16x64_S128x16x16_2_2_1_1_0_0.lhsIdx_val_of_single rfl i q
theorem dotS_rhs0 (i : S128x16x16.Idx) (q : dot_S128x16x64_S128x16x64_S128x16x16_2_2_1_1_0_0.contr.Idx) :
    (dot_S128x16x64_S128x16x64_S128x16x16_2_2_1_1_0_0.rhsIdx i q 0).val = (i 0).val := by
  unfold DotDims.rhsIdx
  rw [dif_pos (show (0 : Fin S128x16x64.rank) ∈ dot_S128x16x64_S128x16x64_S128x16x16_2_2_1_1_0_0.rhsBatch by decide)]
  rfl
theorem dotS_rhs1 (i : S128x16x16.Idx) (q : dot_S128x16x64_S128x16x64_S128x16x16_2_2_1_1_0_0.contr.Idx) :
    (dot_S128x16x64_S128x16x64_S128x16x16_2_2_1_1_0_0.rhsIdx i q 1).val = (i 2).val := by
  unfold DotDims.rhsIdx
  rw [dif_neg (show ¬(1 : Fin S128x16x64.rank) ∈ dot_S128x16x64_S128x16x64_S128x16x16_2_2_1_1_0_0.rhsBatch by decide), dif_pos (show (1 : Fin S128x16x64.rank) ∈ dot_S128x16x64_S128x16x64_S128x16x16_2_2_1_1_0_0.rhsNonContracting by decide)]
  rfl
theorem dotS_rhs2 (i : S128x16x16.Idx) (q : dot_S128x16x64_S128x16x64_S128x16x16_2_2_1_1_0_0.contr.Idx) :
    (dot_S128x16x64_S128x16x64_S128x16x16_2_2_1_1_0_0.rhsIdx i q 2).val = (q ⟨0, by decide⟩).val :=
  dot_S128x16x64_S128x16x64_S128x16x16_2_2_1_1_0_0.rhsIdx_val_of_single rfl i q
/-- A score: inside window `a`, query token `n` against key token `j`. -/
theorem dotS_apply (q : FVec Ideal S128x16x64 .bf16) (kk : FVec Ideal S128x16x64 .bf16) (a : Fin 128) (n j : Fin 16) :
    matmul dot_S128x16x64_S128x16x64_S128x16x16_2_2_1_1_0_0 none q kk (constant S128x16x16 .f32 0x00000000#32) (ix3 a n j)
      = ∑ k : Fin 64, q (ix3 a n k) * kk (ix3 a j k) := by
  simp only [matmul]
  rw [Ideal.matmul_constant_zero_apply, ← Equiv.sum_comp (contrEquiv1 dot_S128x16x64_S128x16x64_S128x16x16_2_2_1_1_0_0 64 rfl rfl).symm]
  refine Finset.sum_congr rfl fun k _ => ?_
  have hk := contrEquiv1_symm_val dot_S128x16x64_S128x16x64_S128x16x16_2_2_1_1_0_0 64 rfl rfl k
  have el : dot_S128x16x64_S128x16x64_S128x16x16_2_2_1_1_0_0.lhsIdx (ix3 a n j) ((contrEquiv1 dot_S128x16x64_S128x16x64_S128x16x16_2_2_1_1_0_0 64 rfl rfl).symm k) = ix3 a n k := funext fun a => Fin.ext (by
    match a with
    | ⟨0, _⟩ => exact dotS_lhs0 _ _
    | ⟨1, _⟩ => exact dotS_lhs1 _ _
    | ⟨2, _⟩ => exact (dotS_lhs2 _ _).trans hk)
  have er : dot_S128x16x64_S128x16x64_S128x16x16_2_2_1_1_0_0.rhsIdx (ix3 a n j) ((contrEquiv1 dot_S128x16x64_S128x16x64_S128x16x16_2_2_1_1_0_0 64 rfl rfl).symm k) = ix3 a j k := funext fun a => Fin.ext (by
    match a with
    | ⟨0, _⟩ => exact dotS_rhs0 _ _
    | ⟨1, _⟩ => exact dotS_rhs1 _ _
    | ⟨2, _⟩ => exact (dotS_rhs2 _ _).trans hk)
  rw [el, er]

theorem dotM_lhs0 (i : S128x16x64.Idx) (q : dot_S128x16x16_S128x16x64_S128x16x64_2_1_1_2_0_0.contr.Idx) :
    (dot_S128x16x16_S128x16x64_S128x16x64_2_1_1_2_0_0.lhsIdx i q 0).val = (i 0).val := by
  unfold DotDims.lhsIdx
  rw [dif_pos (show (0 : Fin S128x16x16.rank) ∈ dot_S128x16x16_S128x16x64_S128x16x64_2_1_1_2_0_0.lhsBatch by decide)]
  rfl
theorem dotM_lhs1 (i : S128x16x64.Idx) (q : dot_S128x16x16_S128x16x64_S128x16x64_2_1_1_2_0_0.contr.Idx) :
    (dot_S128x16x16_S128x16x64_S128x16x64_2_1_1_2_0_0.lhsIdx i q 1).val = (i 1).val := by
  unfold DotDims.lhsIdx
  rw [dif_neg (show ¬(1 : Fin S128x16x16.rank) ∈ dot_S128x16x16_S128x16x64_S128x16x64_2_1_1_2_0_0.lhsBatch by decide), dif_pos (show (1 : Fin S128x16x16.rank) ∈ dot_S128x16x16_S128x16x64_S128x16x64_2_1_1_2_0_0.lhsNonContracting by decide)]
  rfl
theorem dotM_lhs2 (i : S128x16x64.Idx) (q : dot_S128x16x16_S128x16x64_S128x16x64_2_1_1_2_0_0.contr.Idx) :
    (dot_S128x16x16_S128x16x64_S128x16x64_2_1_1_2_0_0.lhsIdx i q 2).val = (q ⟨0, by decide⟩).val :=
  dot_S128x16x16_S128x16x64_S128x16x64_2_1_1_2_0_0.lhsIdx_val_of_single rfl i q
theorem dotM_rhs0 (i : S128x16x64.Idx) (q : dot_S128x16x16_S128x16x64_S128x16x64_2_1_1_2_0_0.contr.Idx) :
    (dot_S128x16x16_S128x16x64_S128x16x64_2_1_1_2_0_0.rhsIdx i q 0).val = (i 0).val := by
  unfold DotDims.rhsIdx
  rw [dif_pos (show (0 : Fin S128x16x64.rank) ∈ dot_S128x16x16_S128x16x64_S128x16x64_2_1_1_2_0_0.rhsBatch by decide)]
  rfl
theorem dotM_rhs1 (i : S128x16x64.Idx) (q : dot_S128x16x16_S128x16x64_S128x16x64_2_1_1_2_0_0.contr.Idx) :
    (dot_S128x16x16_S128x16x64_S128x16x64_2_1_1_2_0_0.rhsIdx i q 1).val = (q ⟨0, by decide⟩).val :=
  dot_S128x16x16_S128x16x64_S128x16x64_2_1_1_2_0_0.rhsIdx_val_of_single rfl i q
theorem dotM_rhs2 (i : S128x16x64.Idx) (q : dot_S128x16x16_S128x16x64_S128x16x64_2_1_1_2_0_0.contr.Idx) :
    (dot_S128x16x16_S128x16x64_S128x16x64_2_1_1_2_0_0.rhsIdx i q 2).val = (i 2).val := by
  unfold DotDims.rhsIdx
  rw [dif_neg (show ¬(2 : Fin S128x16x64.rank) ∈ dot_S128x16x16_S128x16x64_S128x16x64_2_1_1_2_0_0.rhsBatch by decide), dif_pos (show (2 : Fin S128x16x64.rank) ∈ dot_S128x16x16_S128x16x64_S128x16x64_2_1_1_2_0_0.rhsNonContracting by decide)]
  rfl
/-- The mix: inside window `a`, token `n`'s weights against the value rows' feature `d`. -/
theorem dotM_apply (p : FVec Ideal S128x16x16 .bf16) (v : FVec Ideal S128x16x64 .bf16) (a : Fin 128) (n : Fin 16) (d : Fin 64) :
    matmul dot_S128x16x16_S128x16x64_S128x16x64_2_1_1_2_0_0 none p v (constant S128x16x64 .f32 0x00000000#32) (ix3 a n d)
      = ∑ k : Fin 16, p (ix3 a n k) * v (ix3 a k d) := by
  simp only [matmul]
  rw [Ideal.matmul_constant_zero_apply, ← Equiv.sum_comp (contrEquiv1 dot_S128x16x16_S128x16x64_S128x16x64_2_1_1_2_0_0 16 rfl rfl).symm]
  refine Finset.sum_congr rfl fun k _ => ?_
  have hk := contrEquiv1_symm_val dot_S128x16x16_S128x16x64_S128x16x64_2_1_1_2_0_0 16 rfl rfl k
  have el : dot_S128x16x16_S128x16x64_S128x16x64_2_1_1_2_0_0.lhsIdx (ix3 a n d) ((contrEquiv1 dot_S128x16x16_S128x16x64_S128x16x64_2_1_1_2_0_0 16 rfl rfl).symm k) = ix3 a n k := funext fun a => Fin.ext (by
    match a with
    | ⟨0, _⟩ => exact dotM_lhs0 _ _
    | ⟨1, _⟩ => exact dotM_lhs1 _ _
    | ⟨2, _⟩ => exact (dotM_lhs2 _ _).trans hk)
  have er : dot_S128x16x16_S128x16x64_S128x16x64_2_1_1_2_0_0.rhsIdx (ix3 a n d) ((contrEquiv1 dot_S128x16x16_S128x16x64_S128x16x64_2_1_1_2_0_0 16 rfl rfl).symm k) = ix3 a k d := funext fun a => Fin.ext (by
    match a with
    | ⟨0, _⟩ => exact dotM_rhs0 _ _
    | ⟨1, _⟩ => exact (dotM_rhs1 _ _).trans hk
    | ⟨2, _⟩ => exact dotM_rhs2 _ _)
  rw [el, er]

theorem dotO_lhs0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem dotO_lhs1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
theorem dotO_rhs0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem dotO_rhs1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q
/-- The output projection: combined row `m` against output-weight row `e`. -/
theorem dotO_apply (c : FVec Ideal S2048x512 .bf16) (wp : FVec Ideal S512x512 .bf16) (m : Fin 2048) (e : Fin 512) :
    matmul dot_S2048x512_S512x512_S2048x512_1_1_0_0_n_n none c wp (constant S2048x512 .f32 0x00000000#32) (ix2 m e)
      = ∑ k : Fin 512, c (ix2 m k) * wp (ix2 e k) := by
  simp only [matmul]
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 m e) ((contrEquiv1 dot_S2048x512_S512x512_S2048x512_1_1_0_0_n_n 512 rfl rfl).symm k) = ix2 m k := funext fun a => Fin.ext (by
    match a with
    | ⟨0, _⟩ => exact dotO_lhs0 _ _
    | ⟨1, _⟩ => exact (dotO_lhs1 _ _).trans hk)
  have er : dot_S2048x512_S512x512_S2048x512_1_1_0_0_n_n.rhsIdx (ix2 m e) ((contrEquiv1 dot_S2048x512_S512x512_S2048x512_1_1_0_0_n_n 512 rfl rfl).symm k) = ix2 e k := funext fun a => Fin.ext (by
    match a with
    | ⟨0, _⟩ => exact dotO_rhs0 _ _
    | ⟨1, _⟩ => exact (dotO_rhs1 _ _).trans hk)
  rw [el, er]

end Cert.KernelIdeal.Stages

end
-- ==== Proof.WinAttn.lean ====
/-
  Windowed multi-head self-attention on ONE window of 16 tokens, over the extended reals.

  A window is a 16 × 512 array `x` of token features.  Each of the 8 heads owns 64 rows of each of the
  query, key and value weight matrices; for one head with weight slices `wq wk wv : 64 × 512`

    q n d = ∑ k, x n k · wq d k          (likewise k, v)
    s n j = (∑ d, q n d · k j d) · c      (c the score scale)
    m n   = max b (max over j of s n j, folded from b)       (b the bottom element the maxima start from)
    e n j = exp (s n j − m n)
    p n j = e n j / ∑ j', e n j'
    a n d = ∑ j, p n j · v j d

  and the window's result is the heads' outputs laid side by side along the feature axis (feature
  `k` belongs to head `k / 64`, at position `k % 64`), multiplied by the output weights and shifted
  by the bias:   out n e = (∑ k, a_{k/64} n (k%64) · wp e k) + bp e.

  Nothing here depends on how the windows are cut out of the input or tiled over a grid: the result
  at a window is a function of that window's 16 rows only.
-/
import Idealize.ShloMosaic.PureOps.Ideal
import Idealize.ShloMosaic.Lib.ValueIdx

noncomputable section

namespace Cert.WinAttn

open Idealize.ShloMosaic

/-- The score scale, 2⁻³ as the f32 word both programs carry. -/
def scale : EReal := Ideal.ofBits .f32 0x3E000000#32
/-- The element the row maxima start from: the f32 word of −∞. -/
def floor : EReal := Ideal.ofBits .f32 0xFF800000#32

variable (x : Fin 16 → Fin 512 → EReal)

/-- A token's projection onto one head's 64 features. -/
def proj (w : Fin 64 → Fin 512 → EReal) (n : Fin 16) (d : Fin 64) : EReal :=
  ∑ k : Fin 512, x n k * w d k

/-- The scaled score of query token `n` against key token `j`. -/
def score (wq wk : Fin 64 → Fin 512 → EReal) (n j : Fin 16) : EReal :=
  (∑ d : Fin 64, proj x wq n d * proj x wk j d) * scale

/-- The row maximum the softmax subtracts. -/
def rowMax (wq wk : Fin 64 → Fin 512 → EReal) (n : Fin 16) : EReal :=
  max floor ((Finset.univ : Finset (Fin 16)).fold max floor (fun j => score x wq wk n j))

/-- The shifted exponential. -/
def expo (wq wk : Fin 64 → Fin 512 → EReal) (n j : Fin 16) : EReal :=
  Ideal.exp (score x wq wk n j - rowMax x wq wk n)

/-- The softmax weight. -/
def prob (wq wk : Fin 64 → Fin 512 → EReal) (n j : Fin 16) : EReal :=
  Ideal.div (expo x wq wk n j) (∑ j' : Fin 16, expo x wq wk n j')

/-- One head's output for token `n`, feature `d`. -/
def att (wq wk wv : Fin 64 → Fin 512 → EReal) (n : Fin 16) (d : Fin 64) : EReal :=
  ∑ j : Fin 16, prob x wq wk n j * proj x wv j d

/-- The head a combined feature belongs to, and its place inside the head. -/
def headOf (k : Fin 512) : Fin 8 := ⟨k.val / 64, by have := k.isLt; omega⟩
def featOf (k : Fin 512) : Fin 64 := ⟨k.val % 64, Nat.mod_lt _ (by decide)⟩

/-- The window's result: heads side by side, output projection, bias. -/
def out (Wq Wk Wv : Fin 8 → Fin 64 → Fin 512 → EReal) (wp : Fin 512 → Fin 512 → EReal) (bp : Fin 512 → EReal)
    (n : Fin 16) (e : Fin 512) : EReal :=
  (∑ k : Fin 512, att x (Wq (headOf k)) (Wk (headOf k)) (Wv (headOf k)) n (featOf k) * wp e k) + bp e

/-! ## The whole result, over the arrays the two programs hold

  The windowed input is an 8192 × 16 × 512 array; the fused query/key/value weights are one
  1536 × 512 matrix whose rows `s·512 + h·64 + d` are head `h`'s feature `d` of the query (`s = 0`), key
  (`s = 1`) and value (`s = 2`) weights. -/

open Idealize.ShloMosaic.ValueIdx

/-- Row of the fused weight matrix holding head `h`'s feature `d` of part `s`. -/
def qkvRow (s : Fin 3) (h : Fin 8) (d : Fin 64) : Fin 1536 :=
  ⟨s.val * 512 + h.val * 64 + d.val, by have := s.isLt; have := h.isLt; have := d.isLt; omega⟩

/-- The 16 rows of window `W`. -/
def winRows (xw : (⟨3, ![8192, 16, 512]⟩ : Shape).Idx → EReal) (W : Fin 8192) : Fin 16 → Fin 512 → EReal :=
  fun n k => xw (ix3 W n k)

/-- Head `h`'s 64 × 512 slice of part `s` of the fused weights. -/
def wSlice (w : (⟨2, ![1536, 512]⟩ : Shape).Idx → EReal) (s : Fin 3) : Fin 8 → Fin 64 → Fin 512 → EReal :=
  fun h d k => w (ix2 (qkvRow s h d) k)

/-- The output weights and the bias, curried. -/
def wMat (w : (⟨2, ![512, 512]⟩ : Shape).Idx → EReal) : Fin 512 → Fin 512 → EReal := fun e k => w (ix2 e k)
def bVec (b : (⟨1, ![512]⟩ : Shape).Idx → EReal) : Fin 512 → EReal := fun e => b (ix1 e)

/-- Every window's result, as one 8192 × 16 × 512 array. -/
def whole (xw : (⟨3, ![8192, 16, 512]⟩ : Shape).Idx → EReal) (wqkv : (⟨2, ![1536, 512]⟩ : Shape).Idx → EReal)
    (wp : (⟨2, ![512, 512]⟩ : Shape).Idx → EReal) (bp : (⟨1, ![512]⟩ : Shape).Idx → EReal) :
    (⟨3, ![8192, 16, 512]⟩ : Shape).Idx → EReal :=
  fun i => out (winRows xw (i 0)) (wSlice wqkv 0) (wSlice wqkv 1) (wSlice wqkv 2) (wMat wp) (bVec bp) (i 1) (i 2)

theorem whole_ix3 (xw wqkv wp bp) (W : Fin 8192) (n : Fin 16) (e : Fin 512) :
    whole xw wqkv wp bp (ix3 W n e)
      = out (winRows xw W) (wSlice wqkv 0) (wSlice wqkv 1) (wSlice wqkv 2) (wMat wp) (bVec bp) n e := rfl

end Cert.WinAttn

end
-- ==== Proof.KernelRead.lean ====
/-
  The body's stages read at an index, over the extended reals, and one head as the window formula.

  Row `a·16 + n` of the 2048-row block is token `n` of window `a`.  Reading the stages of `head` one
  after the other at (window, token, feature) coordinates turns each into the corresponding formula
  of the window specification applied to window `a`'s sixteen rows: the projections are sums over
  the 512 input features, the scores sums over the head's 64 features times the scale, the row
  maximum a fold of `max` from the bottom word, the weights the shifted exponentials over their row
  sum, and the mix a sum over the sixteen key tokens.
-/
import proofs.«162531_j38431367365166_1_alg».proof.Proof.KernelStages
import proofs.«162531_j38431367365166_1_alg».proof.Proof.KernelDots
import proofs.«162531_j38431367365166_1_alg».proof.Proof.WinAttn
import Idealize.ShloMosaic.Lib.Pipeline.Value
import Idealize.ShloMosaic.Lib.ValueIdx
import Idealize.ShloMosaic.PureOps.Ideal.Laws

noncomputable section

namespace Cert.KernelIdeal.Stages

open Idealize.ShloMosaic Idealize.ShloMosaic.ValueIdx Idealize.SL.Sem Cert.KernelIdeal Cert.KernelIdeal.Gen

/-- The block row holding token `n` of window `a`. -/
def row (a : Fin 128) (n : Fin 16) : Fin 2048 := ⟨a.val * 16 + n.val, by have := a.isLt; have := n.isLt; omega⟩

/-- Rows `a·16 + n` and (window, token) pairs name the same element of a 2048 × c and a 128 × 16 × c array. -/
theorem pos_rows64 (a : Fin 128) (n : Fin 16) (d : Fin 64) :
    (S2048x64.rowMajor (ix2 (row a n) d)).val = (S128x16x64.rowMajor (ix3 a n d)).val := by
  rw [Shape.rowMajor_val_two, Shape.rowMajor_val_three]; rfl
theorem pos_rows512 (a : Fin 128) (n : Fin 16) (e : Fin 512) :
    (S2048x512.rowMajor (ix2 (row a n) e)).val = (S128x16x512.rowMajor (ix3 a n e)).val := by
  rw [Shape.rowMajor_val_two, Shape.rowMajor_val_three]; rfl
/-- A 128 × 16 array kept as a 128 × 16 × 1 column. -/
theorem pos_col (a : Fin 128) (n : Fin 16) :
    (S128x16.rowMajor (ix2 a n)).val = (S128x16x1.rowMajor (ix3 a n (0 : Fin 1))).val := by
  rw [Shape.rowMajor_val_two, Shape.rowMajor_val_three]
  show a.val * 16 + n.val = (a.val * 16 + n.val) * 1 + 0
  omega
/-- The column read along the key axis. -/
theorem col_bcast (a : Fin 128) (n j : Fin 16) (c : Fin S128x16x1.rank) :
    ((ix3 a n (0 : Fin 1) : S128x16x1.Idx) c).val
      = if S128x16x1.size c = 1 then 0
        else ((ix3 a n j : S128x16x16.Idx) ⟨c.val + (S128x16x16.rank - S128x16x1.rank), by have := c.isLt; omega⟩).val := by
  match c with
  | ⟨0, _⟩ => rfl
  | ⟨1, _⟩ => rfl
  | ⟨2, _⟩ => rfl

/-- The index a reduction over the key axis visits at step `j'`. -/
theorem lift_key (a : Fin 128) (n : Fin 16) (j' : Fin 16) :
    (reduces_S128x16x16_S128x16.lift (ix2 a n) j' : S128x16x16.Idx) = ix3 a n j' :=
  funext fun c => Fin.ext (by match c with | ⟨0, _⟩ => rfl | ⟨1, _⟩ => rfl | ⟨2, _⟩ => rfl)

theorem projW_apply (X : FVec Ideal S2048x512 .bf16) (w : FVec Ideal S64x512 .bf16) (a : Fin 128) (n : Fin 16) (d : Fin 64) :
    projW X w (ix3 a n d) = ∑ k : Fin 512, X (ix2 (row a n) k) * w (ix2 d k) := by
  unfold projW
  refine (shapeCast_apply _ shapeCasts_S2048x64_S128x16x64 (ix3 a n d) (ix2 (row a n) d) (pos_rows64 a n d)).trans ?_
  exact dotP_apply X w (row a n) d

theorem scores_apply (q kk : FVec Ideal S128x16x64 .bf16) (a : Fin 128) (n j : Fin 16) :
    scores q kk (ix3 a n j) = (∑ d : Fin 64, q (ix3 a n d) * kk (ix3 a j d)) * WinAttn.scale := by
  unfold scores
  rw [mulf_apply, dotS_apply]
  rfl

theorem rowMaxB_apply (s : FVec Ideal S128x16x16 .f32) (a : Fin 128) (n j : Fin 16) :
    rowMaxB s (ix3 a n j)
      = max WinAttn.floor ((Finset.univ : Finset (Fin 16)).fold max WinAttn.floor (fun j' => s (ix3 a n j'))) := by
  unfold rowMaxB
  refine (broadcastTo_apply _ broadcasts_S128x16x1_S128x16x16 (ix3 a n j) (ix3 a n (0 : Fin 1)) (col_bcast a n j)).trans ?_
  refine (shapeCast_apply _ shapeCasts_S128x16_S128x16x1 (ix3 a n (0 : Fin 1)) (ix2 a n) (pos_col a n)).trans ?_
  rw [maximumf_apply, broadcast_apply]
  refine congrArg (max WinAttn.floor) ?_
  refine (Ideal.multiReduction_maximumf_single s _ reduces_S128x16x16_S128x16 _ _ (ix2 a n)).trans ?_
  refine congrArg (fun f => (Finset.univ : Finset (Fin 16)).fold max WinAttn.floor f) (funext fun j' => ?_)
  exact congrArg s (lift_key a n j')

theorem expos_apply (s : FVec Ideal S128x16x16 .f32) (a : Fin 128) (n j : Fin 16) :
    expos s (ix3 a n j) = Ideal.exp (s (ix3 a n j) - rowMaxB s (ix3 a n j)) := rfl

theorem rowSumC_apply (e : FVec Ideal S128x16x16 .f32) (a : Fin 128) (n : Fin 16) :
    rowSumC e (ix3 a n (0 : Fin 1)) = ∑ j : Fin 16, e (ix3 a n j) := by
  unfold rowSumC
  refine (shapeCast_apply _ shapeCasts_S128x16_S128x16x1 (ix3 a n (0 : Fin 1)) (ix2 a n) (pos_col a n)).trans ?_
  refine (Ideal.multiReduction_add_single e _ reduces_S128x16x16_S128x16 _ _ (ix2 a n)).trans ?_
  exact Finset.sum_congr rfl fun j _ => congrArg e (lift_key a n j)

theorem weights_apply (e : FVec Ideal S128x16x16 .f32) (z : FVec Ideal S128x16x1 .f32) (a : Fin 128) (n j : Fin 16) :
    weights e z (ix3 a n j) = Ideal.div (e (ix3 a n j)) (z (ix3 a n (0 : Fin 1))) := by
  unfold weights
  show Ideal.div (e (ix3 a n j)) (broadcastTo S128x16x16 z broadcasts_S128x16x1_S128x16x16 (ix3 a n j)) = _
  rw [broadcastTo_apply z broadcasts_S128x16x1_S128x16x16 (ix3 a n j) (ix3 a n (0 : Fin 1)) (col_bcast a n j)]

theorem mix_apply (p : FVec Ideal S128x16x16 .bf16) (v : FVec Ideal S128x16x64 .bf16) (a : Fin 128) (n : Fin 16) (d : Fin 64) :
    mix p v (ix2 (row a n) d) = ∑ j : Fin 16, p (ix3 a n j) * v (ix3 a j d) := by
  unfold mix
  refine (shapeCast_apply _ shapeCasts_S128x16x64_S2048x64 (ix2 (row a n) d) (ix3 a n d) (pos_rows64 a n d).symm).trans ?_
  exact dotM_apply p v a n d

/-! ## One head is the window formula -/

section Head
variable (X : FVec Ideal S2048x512 .bf16) (wq wk wv : FVec Ideal S64x512 .bf16)

/-- Window `a`'s sixteen rows of the block, and a weight slice, curried. -/
def rowsOf (a : Fin 128) : Fin 16 → Fin 512 → EReal := fun n k => X (ix2 (row a n) k)
def sliceOf (w : FVec Ideal S64x512 .bf16) : Fin 64 → Fin 512 → EReal := fun d k => w (ix2 d k)

theorem projW_eq (w : FVec Ideal S64x512 .bf16) (a : Fin 128) (n : Fin 16) (d : Fin 64) :
    projW X w (ix3 a n d) = WinAttn.proj (rowsOf X a) (sliceOf w) n d := projW_apply X w a n d

theorem score_eq (a : Fin 128) (n j : Fin 16) :
    scores (projW X wq) (projW X wk) (ix3 a n j) = WinAttn.score (rowsOf X a) (sliceOf wq) (sliceOf wk) n j := by
  rw [scores_apply]
  simp only [projW_eq]
  rfl

theorem expo_eq (a : Fin 128) (n j : Fin 16) :
    expos (scores (projW X wq) (projW X wk)) (ix3 a n j) = WinAttn.expo (rowsOf X a) (sliceOf wq) (sliceOf wk) n j := by
  rw [expos_apply, rowMaxB_apply]
  simp only [score_eq]
  rfl

theorem head_apply (a : Fin 128) (n : Fin 16) (d : Fin 64) :
    head X wq wk wv (ix2 (row a n) d) = WinAttn.att (rowsOf X a) (sliceOf wq) (sliceOf wk) (sliceOf wv) n d := by
  unfold head
  rw [mix_apply]
  unfold WinAttn.att WinAttn.prob
  refine Finset.sum_congr rfl fun j _ => ?_
  rw [weights_apply, rowSumC_apply, projW_eq]
  simp only [expo_eq]

end Head

end Cert.KernelIdeal.Stages

end
-- ==== Proof.KernelBlock.lean ====
/-
  What one grid point leaves in the output block, element by element.

  The body stores one payload over the whole 128 × 16 × 512 output block.  Folded into the eight
  heads and the finishing step, that payload at (window `a`, token `n`, feature `e`) is the window
  formula applied to the sixteen rows of window `a` of the input block, with head `h`'s weight slices
  the rows `h·64 … h·64 + 63` of the three 512 × 512 weight blocks — the rows the body loads for it.
-/
import proofs.«162531_j38431367365166_1_alg».proof.Proof.KernelRead
import proofs.«162531_j38431367365166_1_alg».proof.Proof.Gen.KernelIdeal.Frame
import Idealize.ShloMosaic.Lib.Pipeline.Value

noncomputable section

namespace Cert.KernelIdeal.Stages

open Idealize.ShloMosaic Idealize.ShloMosaic.ValueIdx Idealize.SL.Sem Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- Row of a 512 × 512 weight block holding head `h`'s feature `d`. -/
def headRow (h : Fin 8) (d : Fin 64) : Fin 512 := ⟨h.val * 64 + d.val, by have := h.isLt; have := d.isLt; omega⟩

/-- The 64 rows of head `h`. -/
abbrev rectH (h : Fin 8) : Rect S512x512 :=
  Rect.unit (s := S512x512) ![h.val * 64, 0] S64x512.size (fun a => by
    have := h.isLt
    match a with
    | ⟨0, _⟩ => show h.val * 64 + 64 ≤ 512; omega
    | ⟨1, _⟩ => show 0 + 512 ≤ 512; omega)

/-- A load of head `h`'s rows reads row `h·64 + d`. -/
theorem ld_rectH (x : Vec Ideal S512x512 .bf16) (h : Fin 8) (d : Fin 64) (k : Fin 512) :
    View.ld x (rectH h) (ix2 d k) = x (ix2 (headRow h d) k) := by
  show x ((rectH h).emb (ix2 d k)) = _
  refine congrArg x (funext fun c => Fin.ext ?_)
  rw [Rect.emb_apply]
  match c with
  | ⟨0, _⟩ => show h.val * 64 + 1 * d.val = h.val * 64 + d.val; omega
  | ⟨1, _⟩ => show 0 + 1 * k.val = k.val; omega

/-- The heads side by side, the output projection and the bias, read at (window, token, feature). -/
theorem finish_apply (o : Fin 8 → FVec Ideal S2048x64 .bf16) (wp : FVec Ideal S512x512 .bf16) (b : FVec Ideal S1x512 .f32)
    (a : Fin 128) (n : Fin 16) (e : Fin 512) :
    finish (o 0) (o 1) (o 2) (o 3) (o 4) (o 5) (o 6) (o 7) wp b (ix3 a n e)
      = (∑ k : Fin 512, o (WinAttn.headOf k) (ix2 (row a n) (WinAttn.featOf k)) * wp (ix2 e k)) + b (ix2 (0 : Fin 1) e) := by
  unfold finish
  refine (shapeCast_apply _ shapeCasts_S2048x512_S128x16x512 (ix3 a n e) (ix2 (row a n) e) (pos_rows512 a n e)).trans ?_
  rw [addf_apply, dotO_apply]
  refine congrArg₂ (· + ·) (Finset.sum_congr rfl fun k _ => congrArg (· * wp (ix2 e k)) ?_) ?_
  · exact concatenate_ofFn_apply (t := S2048x512) (s₁ := S2048x64) (1 : Fin 2) (fun h : Fin 8 => o h) _ rfl 64 rfl
      (ix2 (row a n) k) (WinAttn.headOf k) rfl (ix2 (row a n) (WinAttn.featOf k)) rfl
      (fun c hc => by match c with | ⟨0, _⟩ => rfl | ⟨1, _⟩ => exact absurd rfl hc)
  · exact broadcastTo_apply b broadcasts_S1x512_S2048x512 (ix2 (row a n) e) (ix2 (0 : Fin 1) e)
      (fun c => by match c with | ⟨0, _⟩ => rfl | ⟨1, _⟩ => rfl)

/-- The block's rows as the body sees them: the loaded block, reshaped to 2048 rows. -/
theorem rows_block (x0 : Vec Ideal S128x16x512 .bf16) (a : Fin 128) :
    rowsOf (k0_pay2 (View.ld x0 r0_0)) a = fun n k => x0 (ix3 a n k) := by
  funext n k
  unfold rowsOf k0_pay2
  rw [View.ld_unit_zero hz3, shapeCast_self]
  exact shapeCast_apply _ shapeCasts_S128x16x512_S2048x512 (ix2 (row a n) k) (ix3 a n k) (pos_rows512 a n k).symm

/-- Head `h`'s slice of a weight block, as loaded. -/
theorem slice_block (x : Vec Ideal S512x512 .bf16) (h : Fin 8) :
    sliceOf (sl (View.ld x (rectH h))) = fun d k => x (ix2 (headRow h d) k) := by
  funext d k
  unfold sliceOf sl
  rw [shapeCast_self]
  exact ld_rectH x h d k

theorem out_block (x0 : Vec Ideal S128x16x512 .bf16) (x1 x2 x3 x4 : Vec Ideal S512x512 .bf16) (x5 : Vec Ideal S1x512 .f32)
    (a : Fin 128) (n : Fin 16) (e : Fin 512) :
    out0_6 x0 x1 x2 x3 x4 x5 (ix3 a n e)
      = WinAttn.out (fun n k => x0 (ix3 a n k)) (fun h d k => x1 (ix2 (headRow h d) k)) (fun h d k => x2 (ix2 (headRow h d) k))
          (fun h d k => x3 (ix2 (headRow h d) k)) (fun e k => x4 (ix2 e k)) (fun e => x5 (ix2 (0 : Fin 1) e)) n e := by
  unfold out0_6
  rw [View.canon_unit_zero hz3]
  rw [head0_eq, head1_eq, head2_eq, head3_eq, head4_eq, head5_eq, head6_eq, last_eq]
  refine (finish_apply (fun h => head (k0_pay2 (View.ld x0 r0_0)) (sl (View.ld x1 (rectH h))) (sl (View.ld x2 (rectH h)))
      (sl (View.ld x3 (rectH h)))) _ _ a n e).trans ?_
  unfold WinAttn.out
  refine congrArg₂ (· + ·) (Finset.sum_congr rfl fun k _ => congrArg₂ (· * ·) ?_ ?_) ?_
  · show head _ _ _ _ (ix2 (row a n) (WinAttn.featOf k)) = _
    rw [head_apply, rows_block, slice_block, slice_block, slice_block]
  · rw [shapeCast_self, View.ld_unit_zero hz2]
  · rw [shapeCast_self, View.ld_unit_zero hz2]

end Cert.KernelIdeal.Stages

end
-- ==== Proof.KernelArray.lean ====
/-
  From the blocks to the whole output array.

  Grid point `t` handles windows `t·128 … t·128 + 127`: it reads that block of the windowed input and
  the whole of each weight array, and writes back that block of the output.  What it writes back is
  the block of ONE function of the arrays as the region finds them — at (window `W`, token `n`,
  feature `e`) the window formula on window `W`'s rows — and the 64 blocks tile the 8192 windows, so
  after the run the output array is that function.
-/
import proofs.«162531_j38431367365166_1_alg».proof.Proof.KernelBlock
import proofs.«162531_j38431367365166_1_alg».proof.Proof.Gen.KernelIdeal.Frame
import Idealize.ShloMosaic.Lib.Pipeline.Value

noncomputable section

namespace Cert.KernelIdeal.Stages

open Idealize.ShloMosaic Idealize.ShloMosaic.ValueIdx Idealize.ShloMosaic.TcCoe Idealize.SL.Sem Cert.KernelIdeal Cert.KernelIdeal.Gen
open Idealize.ShloMosaic.Pipeline (Dat)

/-- The output array as one function of the six arrays the region reads. -/
def arrayOf (xw : S8192x16x512.Idx → EReal) (wq wk wv wp : S512x512.Idx → EReal) (b : S1x512.Idx → EReal) :
    S8192x16x512.Idx → EReal :=
  fun i => WinAttn.out (fun n k => xw (ix3 (i 0) n k)) (fun h d k => wq (ix2 (headRow h d) k)) (fun h d k => wk (ix2 (headRow h d) k))
    (fun h d k => wv (ix2 (headRow h d) k)) (fun e k => wp (ix2 e k)) (fun e => b (ix2 (0 : Fin 1) e)) (i 1) (i 2)

/-- Window `a` of block `T`. -/
def winOf (T : Nat) (hT : T < 64) (a : Fin 128) : Fin 8192 := ⟨T * 128 + a.val, by have := a.isLt; omega⟩

/-- One point's block, over plain arrays: if the input block is block `T` of `xw` and the other blocks are the whole
    weight arrays, the body's output block is block `T` of `arrayOf`. -/
theorem out_block_at (T : Nat) (hT : T < 64)
    (x0 : Vec Ideal S128x16x512 .bf16) (x1 x2 x3 x4 : Vec Ideal S512x512 .bf16) (x5 : Vec Ideal S1x512 .f32)
    (xw : S8192x16x512.Idx → EReal) (wq wk wv wp : S512x512.Idx → EReal) (b : S1x512.Idx → EReal)
    (h0 : ∀ (a : Fin 128) (n : Fin 16) (k : Fin 512), x0 (ix3 a n k) = xw (ix3 (winOf T hT a) n k))
    (h1 : x1 = wq) (h2 : x2 = wk) (h3 : x3 = wv) (h4 : x4 = wp) (h5 : x5 = b)
    (y : S128x16x512.Idx) :
    out0_6 x0 x1 x2 x3 x4 x5 y = arrayOf xw wq wk wv wp b (ix3 (winOf T hT (y 0)) (y 1) (y 2)) := by
  subst h1 h2 h3 h4 h5
  obtain ⟨a, n, e, rfl⟩ : ∃ (a : Fin 128) (n : Fin 16) (e : Fin 512), y = ix3 a n e := ⟨y 0, y 1, y 2, eq_ix3 y⟩
  rw [out_block]
  show _ = WinAttn.out (fun n k => xw (ix3 (winOf T hT a) n k)) _ _ _ _ _ n e
  rw [show (fun n k => x0 (ix3 a n k)) = fun n k => xw (ix3 (winOf T hT a) n k) from funext fun n => funext fun k => h0 a n k]

section Run

variable (m : (ℓ : Loc nD τ sig) → Buf (Elt Ideal) ℓ)

/-- The printed index maps, decided over the 64 points: the input and output blocks move with the point along the
    window axis, every weight block is the whole array. -/
theorem idx_facts : ∀ t : Fin cfg0.N, t.val < 64
    ∧ win0_6.index t (0 : Fin 3) = t.val ∧ win0_6.index t (1 : Fin 3) = 0 ∧ win0_6.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every block of windows is some point's. -/
theorem idx_onto : ∀ q : Fin 64, ∃ t : Fin cfg0.N, win0_6.index t = ![q.val, 0, 0] :=
  (by decide +kernel : ∀ q : Fin 64, ∃ t : Fin grid0.N, win0_6.index t = ![q.val, 0, 0])

/-- WHAT POINT `t` WRITES BACK is block `t` of `arrayOf` of the arrays as the region finds them. -/
theorem flushed_eq (c : Dev nD) (t : Fin cfg0.N) :
    (dats m 0 c).flushed 6 t = ((cfg0.win 6).blk t).view.read (Elt Ideal)
      (arrayOf (V m c main_v3) (V m c main_v5) (V m c main_v7) (V m c main_v9) (V m c main_v10) (V m c main_v11)) := by
  show (cfg0.win 6).cut (grid0.coords t) ((dats m 0 c).after 6 t) = _
  rw [after0_6]
  obtain ⟨hT, e60, e61, e62, e00, e01, e02, e10, e11, e20, e21, e30, e31, e40, e41, e50, e51⟩ := idx_facts t
  funext j
  show out0_6 (iblk m c 0 t) (iblk m c 1 t) (iblk m c 2 t) (iblk m c 3 t) (iblk m c 4 t) (iblk m c 5 t) j
      = arrayOf (V m c main_v3) (V m c main_v5) (V m c main_v7) (V m c main_v9) (V m c main_v10) (V m c main_v11)
          (((cfg0.win 6).blk t).view.emb j)
  refine (out_block_at t.val hT (iblk m c 0 t) (iblk m c 1 t) (iblk m c 2 t) (iblk m c 3 t) (iblk m c 4 t) (iblk m c 5 t)
      (V m c main_v3) (V m c main_v5) (V m c main_v7) (V m c main_v9) (V m c main_v10) (V m c main_v11) ?_ ?_ ?_ ?_ ?_ ?_ j).trans ?_
  · intro a n k
    show V m c main_v3 (((cfg0.win 0).blk t).view.emb (ix3 a n k)) = _
    refine congrArg (V m c main_v3) (funext fun ax => Fin.ext ?_)
    match ax with
    | ⟨0, _⟩ => show win0_0.index t (0 : Fin 3) * 128 + 1 * a.val = t.val * 128 + a.val; omega
    | ⟨1, _⟩ => show win0_0.index t (1 : Fin 3) * 16 + 1 * n.val = n.val; omega
    | ⟨2, _⟩ => show win0_0.index t (2 : Fin 3) * 512 + 1 * k.val = k.val; omega
  · funext y
    show V m c main_v5 (((cfg0.win 1).blk t).view.emb y) = V m c main_v5 y
    refine congrArg (V m c main_v5) (funext fun ax => Fin.ext ?_)
    match ax with
    | ⟨0, _⟩ => show win0_1.index t (0 : Fin 2) * 512 + 1 * (y 0).val = (y 0).val; omega
    | ⟨1, _⟩ => show win0_1.index t (1 : Fin 2) * 512 + 1 * (y 1).val = (y 1).val; omega
  · funext y
    show V m c main_v7 (((cfg0.win 2).blk t).view.emb y) = V m c main_v7 y
    refine congrArg (V m c main_v7) (funext fun ax => Fin.ext ?_)
    match ax with
    | ⟨0, _⟩ => show win0_2.index t (0 : Fin 2) * 512 + 1 * (y 0).val = (y 0).val; omega
    | ⟨1, _⟩ => show win0_2.index t (1 : Fin 2) * 512 + 1 * (y 1).val = (y 1).val; omega
  · funext y
    show V m c main_v9 (((cfg0.win 3).blk t).view.emb y) = V m c main_v9 y
    refine congrArg (V m c main_v9) (funext fun ax => Fin.ext ?_)
    match ax with
    | ⟨0, _⟩ => show win0_3.index t (0 : Fin 2) * 512 + 1 * (y 0).val = (y 0).val; omega
    | ⟨1, _⟩ => show win0_3.index t (1 : Fin 2) * 512 + 1 * (y 1).val = (y 1).val; omega
  · funext y
    show V m c main_v10 (((cfg0.win 4).blk t).view.emb y) = V m c main_v10 y
    refine congrArg (V m c main_v10) (funext fun ax => Fin.ext ?_)
    match ax with
    | ⟨0, _⟩ => show win0_4.index t (0 : Fin 2) * 512 + 1 * (y 0).val = (y 0).val; omega
    | ⟨1, _⟩ => show win0_4.index t (1 : Fin 2) * 512 + 1 * (y 1).val = (y 1).val; omega
  · funext y
    show V m c main_v11 (((cfg0.win 5).blk t).view.emb y) = V m c main_v11 y
    refine congrArg (V m c main_v11) (funext fun ax => Fin.ext ?_)
    match ax with
    | ⟨0, _⟩ => show win0_5.index t (0 : Fin 2) * 1 + 1 * (y 0).val = (y 0).val; omega
    | ⟨1, _⟩ => show win0_5.index t (1 : Fin 2) * 512 + 1 * (y 1).val = (y 1).val; omega
  · refine congrArg (arrayOf (V m c main_v3) (V m c main_v5) (V m c main_v7) (V m c main_v9) (V m c main_v10) (V m c main_v11))
      (funext fun ax => Fin.ext ?_)
    match ax with
    | ⟨0, _⟩ => show t.val * 128 + (j 0).val = win0_6.index t (0 : Fin 3) * 128 + 1 * (j 0).val; omega
    | ⟨1, _⟩ => show (j 1).val = win0_6.index t (1 : Fin 3) * 16 + 1 * (j 1).val; omega
    | ⟨2, _⟩ => show (j 2).val = win0_6.index t (2 : Fin 3) * 512 + 1 * (j 2).val; omega

/-- An index of the output array is in point `t`'s block iff each coordinate is in the block's range on its axis. -/
theorem mem_blk (t : Fin cfg0.N) (i : S8192x16x512.Idx) :
    i ∈ ((cfg0.win 6).blk t).view.set ↔ ∀ a : Fin 3, win0_6.index t a * S128x16x512.size a ≤ (i a).val
      ∧ (i a).val < win0_6.index t a * S128x16x512.size a + S128x16x512.size a := by
  show i ∈ ((View.whole main_v12).slice (win0_6.rect t)).set ↔ _
  rw [View.set_slice_whole, Rect.mem_set_unit]
  exact Iff.rfl

/-- Window `W` is written by the point `W / 128`: the blocks tile the array. -/
theorem cover (i : S8192x16x512.Idx) :
    ∃ t : Fin cfg0.N, (cfg0.win 6).flush t = true ∧ i ∈ ((cfg0.win 6).blk t).view.set := by
  have hi0 : (i 0).val < 8192 := (i 0).isLt
  have hi1 : (i 1).val < 16 := (i 1).isLt
  have hi2 : (i 2).val < 512 := (i 2).isLt
  obtain ⟨t, ht⟩ := idx_onto ⟨(i 0).val / 128, by omega⟩
  have q0 : win0_6.index t (0 : Fin 3) = (i 0).val / 128 := congrFun ht 0
  have q1 : win0_6.index t (1 : Fin 3) = 0 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 128 ≤ (i 0).val ∧ (i 0).val < win0_6.index t (0 : Fin 3) * 128 + 128; omega
  | ⟨1, _⟩ => show win0_6.index t (1 : Fin 3) * 16 ≤ (i 1).val ∧ (i 1).val < win0_6.index t (1 : Fin 3) * 16 + 16; omega
  | ⟨2, _⟩ => show win0_6.index t (2 : Fin 3) * 512 ≤ (i 2).val ∧ (i 2).val < win0_6.index t (2 : Fin 3) * 512 + 512; omega

/-- THE OUTPUT ARRAY after the run. -/
theorem final (c : Dev nD) :
    (dats m 0 c).arrAt 6 cfg0.N
      = arrayOf (V m c main_v3) (V m c main_v5) (V m c main_v7) (V m c main_v9) (V m c main_v10) (V m c main_v11) :=
  (dats m 0 c).arrAt_eq_of_cover 6 _ (fun t _ => flushed_eq m c t) cover

end Run

end Cert.KernelIdeal.Stages

end
-- ==== Proof.KernelRun.lean ====
/-
  The kernel's whole run, at the specification.

  Before the region the program cuts the input into 8192 windows of 16 tokens (a reshape, a swap of
  two axes, a reshape), splits the fused weights into their query, key and value thirds, and views
  the bias as one row; none of this changes a value over the extended reals.  So the six arrays the
  region reads are the windowed input, the three thirds of the fused weights, the output weights and
  the bias, and the region's output array is the specification's whole array of them.  After the
  region the windows are laid back (the inverse reshape, swap, reshape).
-/
import proofs.«162531_j38431367365166_1_alg».proof.Proof.KernelArray
import Idealize.ShloMosaic.Lib.StableHlo.Run
import Idealize.ShloMosaic.Lib.Pipeline.FrameSuffix

noncomputable section

namespace Cert.KernelIdeal.Stages

open Idealize.ShloMosaic Idealize.ShloMosaic.ValueIdx Idealize.ShloMosaic.TcCoe Idealize.SL.Sem Cert.KernelIdeal Cert.KernelIdeal.Gen
open Idealize.ShloMosaic.StableHlo
open Idealize.ShloMosaic.Pipeline (Dat)

/-- The input cut into windows: [4, 256, 128, 512] → [8192, 16, 512]. -/
def windowsK (x : S4x256x128x512.Idx → EReal) : S8192x16x512.Idx → EReal :=
  shapeCast S8192x16x512
    (transpose S4x64x32x4x4x512 [0, 1, 3, 2, 4, 5]
      (shapeCast S4x64x4x32x4x512 (truncf (F := Ideal) .bf16 x bitsLt_bf16_f32) shapeCasts_S4x256x128x512_S4x64x4x32x4x512)
      transposes_S4x64x4x32x4x512_S4x64x32x4x4x512_0_1_3_2_4_5)
    shapeCasts_S4x64x32x4x4x512_S8192x16x512

/-- The windows laid back: [8192, 16, 512] → [4, 256, 128, 512]. -/
def unwindowK (X : S8192x16x512.Idx → EReal) : S4x256x128x512.Idx → EReal :=
  shapeCast S4x256x128x512
    (transpose S4x64x4x32x4x512 [0, 1, 3, 2, 4, 5]
      (shapeCast S4x64x32x4x4x512 X shapeCasts_S8192x16x512_S4x64x32x4x4x512)
      transposes_S4x64x32x4x4x512_S4x64x4x32x4x512_0_1_3_2_4_5)
    shapeCasts_S4x64x4x32x4x512_S4x256x128x512

variable (m : (ℓ : Loc nD τ sig) → Buf (Elt Ideal) ℓ) (ρ : Dev nD → PrngReg)

/-! ## The arrays the region finds -/

theorem V_v3 (c : Dev nD) :
    (V m c main_v3 : S8192x16x512.Idx → EReal) = windowsK (m ((c : Thread nD τ).loc main_arg0)) := by
  show StableHlo.after hostOps0 (fun b => m (c, b)) (Proc.devRef .tc main_v3) = _
  after_results <;> rfl

theorem V_v5 (c : Dev nD) :
    (V m c main_v5 : S512x512.Idx → EReal)
      = truncf (F := Ideal) .bf16 (extractStridedSlice S512x512 ![0, 0] (m ((c : Thread nD τ).loc main_arg1)) slices_S1536x512_S512x512_0_0) bitsLt_bf16_f32 := by
  show StableHlo.after hostOps0 (fun b => m (c, b)) (Proc.devRef .tc main_v5) = _
  after_results <;> rfl

theorem V_v7 (c : Dev nD) :
    (V m c main_v7 : S512x512.Idx → EReal)
      = truncf (F := Ideal) .bf16 (extractStridedSlice S512x512 ![512, 0] (m ((c : Thread nD τ).loc main_arg1)) slices_S1536x512_S512x512_512_0) bitsLt_bf16_f32 := by
  show StableHlo.after hostOps0 (fun b => m (c, b)) (Proc.devRef .tc main_v7) = _
  after_results <;> rfl

theorem V_v9 (c : Dev nD) :
    (V m c main_v9 : S512x512.Idx → EReal)
      = truncf (F := Ideal) .bf16 (extractStridedSlice S512x512 ![1024, 0] (m ((c : Thread nD τ).loc main_arg1)) slices_S1536x512_S512x512_1024_0) bitsLt_bf16_f32 := by
  show StableHlo.after hostOps0 (fun b => m (c, b)) (Proc.devRef .tc main_v9) = _
  after_results <;> rfl

theorem V_v10 (c : Dev nD) :
    (V m c main_v10 : S512x512.Idx → EReal) = truncf (F := Ideal) .bf16 (m ((c : Thread nD τ).loc main_arg2)) bitsLt_bf16_f32 := by
  show StableHlo.after hostOps0 (fun b => m (c, b)) (Proc.devRef .tc main_v10) = _
  after_results <;> rfl

theorem V_v11 (c : Dev nD) :
    (V m c main_v11 : S1x512.Idx → EReal) = shapeCast S1x512 (m ((c : Thread nD τ).loc main_arg3)) shapeCasts_S512_S1x512 := by
  show StableHlo.after hostOps0 (fun b => m (c, b)) (Proc.devRef .tc main_v11) = _
  after_results <;> rfl

/-- Row `h·64 + d` of the third starting at row `s·512` of the fused weights is row `s·512 + h·64 + d`. -/
theorem third_apply (x1 : S1536x512.Idx → EReal) (s : Fin 3) (off : Nat) (hoff : off = s.val * 512)
    (hs : S1536x512.Slices ![off, 0] S512x512) (h : Fin 8) (d : Fin 64) (k : Fin 512) :
    truncf (F := Ideal) .bf16 (extractStridedSlice S512x512 ![off, 0] x1 hs) bitsLt_bf16_f32 (ix2 (headRow h d) k)
      = x1 (ix2 (WinAttn.qkvRow s h d) k) := by
  show extractStridedSlice S512x512 ![off, 0] x1 hs (ix2 (headRow h d) k) = _
  refine extractStridedSlice_apply ![off, 0] x1 hs (ix2 (headRow h d) k) (ix2 (WinAttn.qkvRow s h d) k) (fun a => ?_)
  match a with
  | ⟨0, _⟩ => show s.val * 512 + h.val * 64 + d.val = off + (h.val * 64 + d.val); omega
  | ⟨1, _⟩ => show k.val = 0 + k.val; omega

/-- The region's output array is the specification's whole array of the windowed input and the three weight arguments. -/
theorem arrayOf_eq (c : Dev nD) :
    arrayOf (V m c main_v3) (V m c main_v5) (V m c main_v7) (V m c main_v9) (V m c main_v10) (V m c main_v11)
      = WinAttn.whole (windowsK (m ((c : Thread nD τ).loc main_arg0))) (m ((c : Thread nD τ).loc main_arg1))
          (m ((c : Thread nD τ).loc main_arg2)) (m ((c : Thread nD τ).loc main_arg3)) := by
  rw [V_v3, V_v5, V_v7, V_v9, V_v10, V_v11]
  funext i
  unfold arrayOf WinAttn.whole WinAttn.winRows WinAttn.wSlice WinAttn.wMat WinAttn.bVec
  congr 1
  · funext h d k; exact third_apply _ 0 0 rfl _ h d k
  · funext h d k; exact third_apply _ 1 512 rfl _ h d k
  · funext h d k; exact third_apply _ 2 1024 rfl _ h d k
  · funext e
    refine shapeCast_apply _ shapeCasts_S512_S1x512 (ix2 (0 : Fin 1) e) (ix1 e) ?_
    rw [Shape.rowMajor_val_one, Shape.rowMajor_val_two]
    show e.val = 0 * 512 + e.val
    omega

/-! ## After the region -/

theorem tail_eq (c : Dev nD) :
    (Pipeline.afterTail₀ cfgs (dats m) 0 (V0 m) [hostOps1] c main_v15 : S4x256x128x512.Idx → EReal)
      = unwindowK (WinAttn.whole (windowsK (m ((c : Thread nD τ).loc main_arg0))) (m ((c : Thread nD τ).loc main_arg1))
          (m ((c : Thread nD τ).loc main_arg2)) (m ((c : Thread nD τ).loc main_arg3))) := by
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_v12)
      = (dats m 0 c).arrAt 6 cfg0.N := Pipeline.withArrays_arr spec0 launch0.win.arr_inj c _ _ 6
  rw [e, final, arrayOf_eq]
  rfl

/-- THE KERNEL'S RUN: every weakly fair execution terminates with the result at the windows laid back of the
    specification's whole array, the arguments unchanged. -/
theorem run : θ_run defs (onTc (τ := τ) (main (F := Ideal))) ⟨m, fun _ => 0, ρ⟩ fun r => ∀ c : Dev nD,
      r.2.mem ((c.tc : Thread nD τ).loc main_v15)
        = unwindowK (WinAttn.whole (windowsK (m ((c : Thread nD τ).loc main_arg0))) (m ((c : Thread nD τ).loc main_arg1))
            (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v15 (Pipeline.mem_restRefs_of main_v15 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Stages

end
-- ==== Proof.RefSide.lean ====
/-
  The reference program's stages, read index by index, are the windowed multi-head self-attention of
  the specification: the fused projection split into heads, the scaled scores, the row maxima, the
  shifted exponentials, the softmax weights, the heads' outputs laid side by side, and the output
  projection with its bias.
-/
import proofs.«162531_j38431367365166_1_alg».proof.Proof.Gen.ReferenceIdeal.Read
import proofs.«162531_j38431367365166_1_alg».proof.Proof.WinAttn
import Idealize.ShloMosaic.PureOps.Ideal.Laws
import Idealize.ShloMosaic.Lib.ValueIdx

noncomputable section

namespace Cert.RefSide

open Cert.ReferenceIdeal Cert.ReferenceIdeal.Gen Cert.ReferenceIdeal.Read Idealize.ShloMosaic Idealize.ShloMosaic.ValueIdx
open Cert

section Stages

variable (x0 : (⟨S4x256x128x512, .f32⟩ : BufTy).Contents (Elt Ideal)) (x1 : (⟨S1536x512, .f32⟩ : BufTy).Contents (Elt Ideal))
  (x2 : (⟨S512x512, .f32⟩ : BufTy).Contents (Elt Ideal)) (x3 : (⟨S512, .f32⟩ : BufTy).Contents (Elt Ideal))

/-- The windowed input, as the specification takes it. -/
abbrev xw : (⟨3, ![8192, 16, 512]⟩ : Shape).Idx → EReal := Read.val_main_v2 (F := Ideal) x0

/-! ## The three projections, split into heads

  Head `h`'s feature `d` of token `n` of window `W` sits at feature `h·64 + d` of the fused projection's
  part, which is column `s·512 + h·64 + d` of the fused product. -/

theorem lidx_q (W : Fin 8192) (h : Fin 8) (n : Fin 16) (d : Fin 64) (k : Fin 512) :
    lidx_main_v3 (idx_main_v4 (idx_main_v7 (idx_main_v8 (ix4 W h n d)))) k = ix3 W n k := by
  have := W.isLt; have := h.isLt; have := n.isLt; have := d.isLt
  funext a; apply Fin.ext
  match a with
  | ⟨0, _⟩ => show (((W.val * 16 + n.val) * 8 + h.val) * 64 + d.val) / 8192 = W.val; omega
  | ⟨1, _⟩ => show (((W.val * 16 + n.val) * 8 + h.val) * 64 + d.val) / 512 % 16 = n.val; omega
  | ⟨2, _⟩ => rfl

theorem ridx_q (W : Fin 8192) (h : Fin 8) (n : Fin 16) (d : Fin 64) (k : Fin 512) :
    ridx_main_v3 (idx_main_v4 (idx_main_v7 (idx_main_v8 (ix4 W h n d)))) k = ix2 (WinAttn.qkvRow 0 h d) k := by
  have := W.isLt; have := h.isLt; have := n.isLt; have := d.isLt
  funext a; apply Fin.ext
  match a with
  | ⟨0, _⟩ => show (((W.val * 16 + n.val) * 8 + h.val) * 64 + d.val) % 512 = 0 * 512 + h.val * 64 + d.val; omega
  | ⟨1, _⟩ => rfl

theorem v8_ix (W : Fin 8192) (h : Fin 8) (n : Fin 16) (d : Fin 64) :
    val_main_v8 (F := Ideal) x0 x1 (ix4 W h n d)
      = WinAttn.proj (WinAttn.winRows (xw x0) W) (WinAttn.wSlice x1 0 h) n d := by
  rw [val_main_v8_apply, val_main_v7_apply, val_main_v4_apply, val_main_v3_apply]
  unfold WinAttn.proj WinAttn.winRows WinAttn.wSlice
  refine Finset.sum_congr rfl fun k _ => ?_
  rw [lidx_q, ridx_q]

theorem lidx_k (W : Fin 8192) (h : Fin 8) (n : Fin 16) (d : Fin 64) (k : Fin 512) :
    lidx_main_v3 (idx_main_v5 (idx_main_v9 (idx_main_v10 (ix4 W h n d)))) k = ix3 W n k := by
  have := W.isLt; have := h.isLt; have := n.isLt; have := d.isLt
  funext a; apply Fin.ext
  match a with
  | ⟨0, _⟩ => show (((W.val * 16 + n.val) * 8 + h.val) * 64 + d.val) / 8192 = W.val; omega
  | ⟨1, _⟩ => show (((W.val * 16 + n.val) * 8 + h.val) * 64 + d.val) / 512 % 16 = n.val; omega
  | ⟨2, _⟩ => rfl

theorem ridx_k (W : Fin 8192) (h : Fin 8) (n : Fin 16) (d : Fin 64) (k : Fin 512) :
    ridx_main_v3 (idx_main_v5 (idx_main_v9 (idx_main_v10 (ix4 W h n d)))) k = ix2 (WinAttn.qkvRow 1 h d) k := by
  have := W.isLt; have := h.isLt; have := n.isLt; have := d.isLt
  funext a; apply Fin.ext
  match a with
  | ⟨0, _⟩ => show 512 + (((W.val * 16 + n.val) * 8 + h.val) * 64 + d.val) % 512 = 1 * 512 + h.val * 64 + d.val; omega
  | ⟨1, _⟩ => rfl

theorem v10_ix (W : Fin 8192) (h : Fin 8) (n : Fin 16) (d : Fin 64) :
    val_main_v10 (F := Ideal) x0 x1 (ix4 W h n d)
      = WinAttn.proj (WinAttn.winRows (xw x0) W) (WinAttn.wSlice x1 1 h) n d := by
  rw [val_main_v10_apply, val_main_v9_apply, val_main_v5_apply, val_main_v3_apply]
  unfold WinAttn.proj WinAttn.winRows WinAttn.wSlice
  refine Finset.sum_congr rfl fun k _ => ?_
  rw [lidx_k, ridx_k]

theorem lidx_v (W : Fin 8192) (h : Fin 8) (n : Fin 16) (d : Fin 64) (k : Fin 512) :
    lidx_main_v3 (idx_main_v6 (idx_main_v11 (idx_main_v12 (ix4 W h n d)))) k = ix3 W n k := by
  have := W.isLt; have := h.isLt; have := n.isLt; have := d.isLt
  funext a; apply Fin.ext
  match a with
  | ⟨0, _⟩ => show (((W.val * 16 + n.val) * 8 + h.val) * 64 + d.val) / 8192 = W.val; omega
  | ⟨1, _⟩ => show (((W.val * 16 + n.val) * 8 + h.val) * 64 + d.val) / 512 % 16 = n.val; omega
  | ⟨2, _⟩ => rfl

theorem ridx_v (W : Fin 8192) (h : Fin 8) (n : Fin 16) (d : Fin 64) (k : Fin 512) :
    ridx_main_v3 (idx_main_v6 (idx_main_v11 (idx_main_v12 (ix4 W h n d)))) k = ix2 (WinAttn.qkvRow 2 h d) k := by
  have := W.isLt; have := h.isLt; have := n.isLt; have := d.isLt
  funext a; apply Fin.ext
  match a with
  | ⟨0, _⟩ => show 1024 + (((W.val * 16 + n.val) * 8 + h.val) * 64 + d.val) % 512 = 2 * 512 + h.val * 64 + d.val; omega
  | ⟨1, _⟩ => rfl

theorem v12_ix (W : Fin 8192) (h : Fin 8) (n : Fin 16) (d : Fin 64) :
    val_main_v12 (F := Ideal) x0 x1 (ix4 W h n d)
      = WinAttn.proj (WinAttn.winRows (xw x0) W) (WinAttn.wSlice x1 2 h) n d := by
  rw [val_main_v12_apply, val_main_v11_apply, val_main_v6_apply, val_main_v3_apply]
  unfold WinAttn.proj WinAttn.winRows WinAttn.wSlice
  refine Finset.sum_congr rfl fun k _ => ?_
  rw [lidx_v, ridx_v]

/-! ## The scaled scores -/

theorem lidx_s (W : Fin 8192) (h : Fin 8) (n j : Fin 16) (k : Fin 64) :
    lidx_main_v13 (ix4 W h n j) k = ix4 W h n k :=
  funext fun a => Fin.ext (by match a with | ⟨0, _⟩ => rfl | ⟨1, _⟩ => rfl | ⟨2, _⟩ => rfl | ⟨3, _⟩ => rfl)

theorem ridx_s (W : Fin 8192) (h : Fin 8) (n j : Fin 16) (k : Fin 64) :
    ridx_main_v13 (ix4 W h n j) k = ix4 W h j k :=
  funext fun a => Fin.ext (by match a with | ⟨0, _⟩ => rfl | ⟨1, _⟩ => rfl | ⟨2, _⟩ => rfl | ⟨3, _⟩ => rfl)

theorem v15_ix (W : Fin 8192) (h : Fin 8) (n j : Fin 16) :
    val_main_v15 (F := Ideal) x0 x1 (ix4 W h n j)
      = WinAttn.score (WinAttn.winRows (xw x0) W) (WinAttn.wSlice x1 0 h) (WinAttn.wSlice x1 1 h) n j := by
  rw [val_main_v15_apply, val_main_v13_apply, val_main_v14_apply, val_main_cst_apply]
  unfold WinAttn.score WinAttn.scale
  rw [Ideal.mulf_def, Ideal.ofBits_def]
  refine congrArg (· * _) (Finset.sum_congr rfl fun k _ => ?_)
  rw [lidx_s, ridx_s, v8_ix, v10_ix]

/-! ## The row maxima -/

theorem lift_ix (hR : S8192x8x16x16.Reduces [3] S8192x8x16) (W : Fin 8192) (h : Fin 8) (n j : Fin 16) :
    hR.lift (ix3 W h n) j = ix4 W h n j :=
  funext fun a => Fin.ext (by match a with | ⟨0, _⟩ => rfl | ⟨1, _⟩ => rfl | ⟨2, _⟩ => rfl | ⟨3, _⟩ => rfl)

theorem v16_ix (W : Fin 8192) (h : Fin 8) (n : Fin 16) :
    val_main_v16 (F := Ideal) x0 x1 (ix3 W h n)
      = (Finset.univ : Finset (Fin 16)).fold max WinAttn.floor
          (fun j => WinAttn.score (WinAttn.winRows (xw x0) W) (WinAttn.wSlice x1 0 h) (WinAttn.wSlice x1 1 h) n j) := by
  have hR : S8192x8x16x16.Reduces [3] S8192x8x16 := by decide
  unfold val_main_v16
  rw [Host.reduce_eq_fold_single FloatOps.maximumf _ _ reducesTo_S8192x8x16x16_S8192x8x16_d3 hR h_S_]
  have hf : (val_main_v15 (F := Ideal) x0 x1 ∘ hR.lift (ix3 W h n))
      = fun j => WinAttn.score (WinAttn.winRows (xw x0) W) (WinAttn.wSlice x1 0 h) (WinAttn.wSlice x1 1 h) n j := by
    refine funext fun (j : Fin 16) => ?_
    show val_main_v15 (F := Ideal) x0 x1 (hR.lift (ix3 W h n) j) = _
    rw [lift_ix hR W h n j, v15_ix]
  rw [hf]
  rfl

theorem v18_ix (W : Fin 8192) (h : Fin 8) (n : Fin 16) :
    val_main_v18 (F := Ideal) x0 x1 (ix3 W h n)
      = WinAttn.rowMax (WinAttn.winRows (xw x0) W) (WinAttn.wSlice x1 0 h) (WinAttn.wSlice x1 1 h) n := by
  rw [val_main_v18_apply, val_main_v17_apply, val_main_cst_1_apply, v16_ix]
  rfl

/-! ## The shifted exponentials and the softmax weights -/

theorem idx_keep (W : Fin 8192) (h : Fin 8) (n j : Fin 16) :
    idx_main_v19 (idx_main_v20 (ix4 W h n j)) = ix3 W h n :=
  funext fun a => Fin.ext (by match a with | ⟨0, _⟩ => rfl | ⟨1, _⟩ => rfl | ⟨2, _⟩ => rfl)

theorem v22_ix (W : Fin 8192) (h : Fin 8) (n j : Fin 16) :
    val_main_v22 (F := Ideal) x0 x1 (ix4 W h n j)
      = WinAttn.expo (WinAttn.winRows (xw x0) W) (WinAttn.wSlice x1 0 h) (WinAttn.wSlice x1 1 h) n j := by
  rw [val_main_v22_apply, val_main_v21_apply, val_main_v20_apply, val_main_v19_apply, idx_keep, v15_ix, v18_ix]
  rfl

theorem idx_sum (W : Fin 8192) (h : Fin 8) (n k : Fin 16) :
    idx_main_v23 (ix3 W h n) k = ix4 W h n k :=
  funext fun a => Fin.ext (by match a with | ⟨0, _⟩ => rfl | ⟨1, _⟩ => rfl | ⟨2, _⟩ => rfl | ⟨3, _⟩ => rfl)

theorem v23_ix (W : Fin 8192) (h : Fin 8) (n : Fin 16) :
    val_main_v23 (F := Ideal) x0 x1 (ix3 W h n)
      = ∑ j' : Fin 16, WinAttn.expo (WinAttn.winRows (xw x0) W) (WinAttn.wSlice x1 0 h) (WinAttn.wSlice x1 1 h) n j' := by
  rw [val_main_v23_apply, val_main_cst_2_apply, Ideal.ofBits_def, Ideal.ofBits_zero_f32, zero_add]
  refine Finset.sum_congr rfl fun k _ => ?_
  rw [idx_sum, v22_ix]

theorem idx_keep' (W : Fin 8192) (h : Fin 8) (n j : Fin 16) :
    idx_main_v24 (idx_main_v25 (ix4 W h n j)) = ix3 W h n :=
  funext fun a => Fin.ext (by match a with | ⟨0, _⟩ => rfl | ⟨1, _⟩ => rfl | ⟨2, _⟩ => rfl)

theorem v26_ix (W : Fin 8192) (h : Fin 8) (n j : Fin 16) :
    val_main_v26 (F := Ideal) x0 x1 (ix4 W h n j)
      = WinAttn.prob (WinAttn.winRows (xw x0) W) (WinAttn.wSlice x1 0 h) (WinAttn.wSlice x1 1 h) n j := by
  rw [val_main_v26_apply, val_main_v25_apply, val_main_v24_apply, idx_keep', v22_ix, v23_ix]
  rfl

/-! ## The heads' outputs, side by side -/

theorem lidx_a (W : Fin 8192) (h : Fin 8) (n : Fin 16) (d : Fin 64) (k : Fin 16) :
    lidx_main_v27 (ix4 W h n d) k = ix4 W h n k :=
  funext fun a => Fin.ext (by match a with | ⟨0, _⟩ => rfl | ⟨1, _⟩ => rfl | ⟨2, _⟩ => rfl | ⟨3, _⟩ => rfl)

theorem ridx_a (W : Fin 8192) (h : Fin 8) (n : Fin 16) (d : Fin 64) (k : Fin 16) :
    ridx_main_v27 (ix4 W h n d) k = ix4 W h k d :=
  funext fun a => Fin.ext (by match a with | ⟨0, _⟩ => rfl | ⟨1, _⟩ => rfl | ⟨2, _⟩ => rfl | ⟨3, _⟩ => rfl)

theorem v27_ix (W : Fin 8192) (h : Fin 8) (n : Fin 16) (d : Fin 64) :
    val_main_v27 (F := Ideal) x0 x1 (ix4 W h n d)
      = WinAttn.att (WinAttn.winRows (xw x0) W) (WinAttn.wSlice x1 0 h) (WinAttn.wSlice x1 1 h) (WinAttn.wSlice x1 2 h) n d := by
  rw [val_main_v27_apply]
  unfold WinAttn.att
  refine Finset.sum_congr rfl fun k _ => ?_
  rw [lidx_a, ridx_a, v26_ix, v12_ix]

theorem idx_merge (W : Fin 8192) (n : Fin 16) (k : Fin 512) :
    idx_main_v28 (idx_main_v29 (ix3 W n k)) = ix4 W (WinAttn.headOf k) n (WinAttn.featOf k) := by
  have := W.isLt; have := n.isLt; have := k.isLt
  funext a; apply Fin.ext
  match a with
  | ⟨0, _⟩ => show ((W.val * 16 + n.val) * 512 + k.val) / 8192 = W.val; omega
  | ⟨1, _⟩ => show ((W.val * 16 + n.val) * 512 + k.val) / 64 % 8 = k.val / 64; omega
  | ⟨2, _⟩ => show ((W.val * 16 + n.val) * 512 + k.val) / 512 % 16 = n.val; omega
  | ⟨3, _⟩ => show ((W.val * 16 + n.val) * 512 + k.val) % 64 = k.val % 64; omega

theorem v29_ix (W : Fin 8192) (n : Fin 16) (k : Fin 512) :
    val_main_v29 (F := Ideal) x0 x1 (ix3 W n k)
      = WinAttn.att (WinAttn.winRows (xw x0) W) (WinAttn.wSlice x1 0 (WinAttn.headOf k)) (WinAttn.wSlice x1 1 (WinAttn.headOf k))
          (WinAttn.wSlice x1 2 (WinAttn.headOf k)) n (WinAttn.featOf k) := by
  rw [val_main_v29_apply, val_main_v28_apply, idx_merge, v27_ix]

/-! ## The output projection and the bias -/

theorem lidx_o (W : Fin 8192) (n : Fin 16) (e k : Fin 512) :
    lidx_main_v30 (ix3 W n e) k = ix3 W n k :=
  funext fun a => Fin.ext (by match a with | ⟨0, _⟩ => rfl | ⟨1, _⟩ => rfl | ⟨2, _⟩ => rfl)

theorem ridx_o (W : Fin 8192) (n : Fin 16) (e k : Fin 512) :
    ridx_main_v30 (ix3 W n e) k = ix2 e k :=
  funext fun a => Fin.ext (by match a with | ⟨0, _⟩ => rfl | ⟨1, _⟩ => rfl)

theorem idx_bias (W : Fin 8192) (n : Fin 16) (e : Fin 512) :
    idx_main_v31 (idx_main_v32 (ix3 W n e)) = ix1 e :=
  funext fun a => Fin.ext (by match a with | ⟨0, _⟩ => rfl)

theorem v33_ix (W : Fin 8192) (n : Fin 16) (e : Fin 512) :
    val_main_v33 (F := Ideal) x0 x1 x2 x3 (ix3 W n e)
      = WinAttn.out (WinAttn.winRows (xw x0) W) (WinAttn.wSlice x1 0) (WinAttn.wSlice x1 1) (WinAttn.wSlice x1 2)
          (WinAttn.wMat x2) (WinAttn.bVec x3) n e := by
  rw [val_main_v33_apply, val_main_v30_apply, val_main_v32_apply, val_main_v31_apply, idx_bias, Ideal.addf_def]
  unfold WinAttn.out WinAttn.wMat WinAttn.bVec
  refine congrArg (· + _) (Finset.sum_congr rfl fun k _ => ?_)
  rw [lidx_o, ridx_o, v29_ix]

end Stages

/-- The reference's result before the windows are laid back is the specification's whole array. -/
theorem val_v33_eq (x0 : (⟨S4x256x128x512, .f32⟩ : BufTy).Contents (Elt Ideal)) (x1 : (⟨S1536x512, .f32⟩ : BufTy).Contents (Elt Ideal)) (x2 : (⟨S512x512, .f32⟩ : BufTy).Contents (Elt Ideal)) (x3 : (⟨S512, .f32⟩ : BufTy).Contents (Elt Ideal)) :
    Read.val_main_v33 (F := Ideal) x0 x1 x2 x3 = Cert.WinAttn.whole (Read.val_main_v2 (F := Ideal) x0) x1 x2 x3 := by
  funext i
  obtain ⟨W, n, e, rfl⟩ : ∃ (W : Fin 8192) (n : Fin 16) (e : Fin 512), i = ix3 W n e := ⟨i 0, i 1, i 2, eq_ix3 i⟩
  rw [v33_ix, WinAttn.whole_ix3]

end Cert.RefSide

end
-- ==== Proof.lean ====
/-
  Windowed multi-head self-attention: the fused kernel against the einsum reference, over the
  extended reals.

  Both programs cut the [4, 256, 128, 512] input into 8192 windows of 16 tokens by the same reshape,
  axis swap and reshape, and lay the result back by the same inverse; in between each computes, for
  every window, eight heads of softmax attention followed by an output projection with bias
  (`Cert.WinAttn.out`).  They differ only in arrangement: the reference projects with the fused
  1536 × 512 weights once and splits the product into heads by reshapes and transposes over all
  windows, while the kernel walks a grid of 64 points, each handling 128 windows as one 2048-row
  block, projects head by head with 64-row slices of the three thirds of the weights, and lays the
  heads side by side before the output projection.  Over the extended reals every change of float
  format is the identity, a matrix product is a finite sum of products, and a finite sum does not
  depend on how it is tiled, so index by index the two are the same formula: no cancellation or
  distribution is used, and the finiteness of the inputs is never needed.

  * `WinAttn`       — the window formula and the whole 8192 × 16 × 512 array built from it;
  * `RefSide`       — the reference's stages, read index by index, are that array;
  * `KernelStages`  — the body's text regrouped into eight uniform heads and a finishing step;
  * `KernelDots`, `KernelRead` — its matrix products and stages read at an index: one head is the window formula;
  * `KernelBlock`, `KernelArray` — one grid point writes its block of the array; the blocks tile it;
  * `KernelRun`     — the arrays before the region, the windows laid back after it, the kernel's run.

  The three frames are the generated ones (the reference's is its generated run with the result
  dropped); the idealization rewrote nothing, so `preserves` is trivial.
-/
import proofs.«162531_j38431367365166_1_alg».proof.Defs
import proofs.«162531_j38431367365166_1_alg».proof.Proof.Gen.Kernel
import proofs.«162531_j38431367365166_1_alg».proof.Proof.Gen.Kernel.Skeleton
import proofs.«162531_j38431367365166_1_alg».proof.Proof.Gen.Kernel.Launch
import proofs.«162531_j38431367365166_1_alg».proof.Proof.Gen.Kernel.Points
import proofs.«162531_j38431367365166_1_alg».proof.Proof.Gen.Kernel.Frame
import proofs.«162531_j38431367365166_1_alg».proof.Proof.Gen.KernelIdeal
import proofs.«162531_j38431367365166_1_alg».proof.Proof.Gen.KernelIdeal.Skeleton
import proofs.«162531_j38431367365166_1_alg».proof.Proof.Gen.KernelIdeal.Launch
import proofs.«162531_j38431367365166_1_alg».proof.Proof.Gen.KernelIdeal.Points
import proofs.«162531_j38431367365166_1_alg».proof.Proof.Gen.KernelIdeal.Frame
import proofs.«162531_j38431367365166_1_alg».proof.Proof.Gen.ReferenceIdeal
import proofs.«162531_j38431367365166_1_alg».proof.Proof.Gen.Pre_finite_inputs
import proofs.«162531_j38431367365166_1_alg».proof.Proof.Gen.ReferenceIdeal.Run
import proofs.«162531_j38431367365166_1_alg».proof.Proof.Gen.ReferenceIdeal.Read
import proofs.«162531_j38431367365166_1_alg».proof.Proof.KernelRun
import proofs.«162531_j38431367365166_1_alg».proof.Proof.RefSide
import Idealize.ShloMosaic.Adequacy
import Idealize.ShloMosaic.Init

noncomputable section

namespace Cert.Proof

open Idealize.ShloMosaic Idealize.SL.Sem

/-- The reference lays its windows back by the same reshape, axis swap and reshape as the kernel. -/
theorem ref_result (x0 : (⟨Cert.ReferenceIdeal.S4x256x128x512, .f32⟩ : BufTy).Contents (Elt Ideal))
    (x1 : (⟨Cert.ReferenceIdeal.S1536x512, .f32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal)) :
    Cert.ReferenceIdeal.Read.val_main_v36 (F := Ideal) x0 x1 x2 x3
      = Cert.KernelIdeal.Stages.unwindowK (Cert.ReferenceIdeal.Read.val_main_v33 (F := Ideal) x0 x1 x2 x3) := rfl

/-- And cuts them out by the same one: the kernel's change of float format in front is the identity. -/
theorem ref_windows (x0 : (⟨Cert.ReferenceIdeal.S4x256x128x512, .f32⟩ : BufTy).Contents (Elt Ideal)) :
    Cert.ReferenceIdeal.Read.val_main_v2 (F := Ideal) x0 = Cert.KernelIdeal.Stages.windowsK x0 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the windows laid back of the specification's
    whole array of the windowed input and the three weight arguments. -/
theorem algebraic : Cert.algebraic_KernelIdeal_ReferenceIdeal := by
  intro m ρ m' ρ' _ hagree
  refine ⟨_, Cert.KernelIdeal.Stages.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2,
    ref_result, Cert.RefSide.val_v33_eq, ref_windows]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
